-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 80
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x128, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x64, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x64, .f32⟩
  | .hbm, ⟨71, _⟩ => ⟨S1700000x1, .f32⟩
  | .hbm, ⟨72, _⟩ => ⟨S1700000x64, .f32⟩
  | .hbm, ⟨73, _⟩ => ⟨S1700000x64, .f32⟩
  | .hbm, ⟨74, _⟩ => ⟨S_, .f32⟩
  | .hbm, ⟨75, _⟩ => ⟨S100000x64, .f32⟩
  | .hbm, ⟨76, _⟩ => ⟨S1700000x1, .i32⟩
  | .hbm, ⟨77, _⟩ => ⟨S100000x64, .f32⟩
  | .hbm, ⟨78, _⟩ => ⟨S1x64, .f32⟩
  | .hbm, ⟨79, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 100
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x128, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S100000x1, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000, .f32⟩
  | .hbm, ⟨96, _⟩ => ⟨S100000x1, .f32⟩
  | .hbm, ⟨97, _⟩ => ⟨S100000x1, .f32⟩
  | .hbm, ⟨98, _⟩ => ⟨S100000x64, .f32⟩
  | .hbm, ⟨99, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call1_cst : Ref sig .tc := ⟨.hbm, 85, rfl⟩
abbrev main_call1_v0 : Ref sig .tc := ⟨.hbm, 86, rfl⟩
abbrev main_call1_cst_0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_cst_1 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_v64 : Ref sig .tc := ⟨.hbm, 99, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  The two-layer graph convolution both programs compute, as pure functions of arrays — stated over the reference's own
  shape records, generic in the float instance.

  Nodes are rows 0 … 99999; the edge list `e` is [2, 1600000] (row 0 the sources, row 1 the targets), and every node gets a
  self-loop, so there are 1700000 edges. With `deg` the in-degree counted over those edges, an edge (s → d) carries the weight
  `rsqrt (max deg[s] 1) · rsqrt (max deg[d] 1)`. One layer sends a node table `h` to
      out[v, :] = Σ_{edges (s → v)} weight · h[s, :],
  an accumulating scatter of gathered, scaled rows. The network is
      log_softmax (layer (relu (layer (x · W1) + b1) · W2) + b2),
  the soft-max taken along each row after subtracting the row's maximum.

  The pieces are split where the pipelined kernel splits its work: the two dense products, the bias-and-relu step and the
  bias-and-log-softmax step are what its four regions compute block by block; everything else is host arithmetic that both
  programs spell identically.
-/
import proofs.«101620_j6090263626106_1_alg».proof.Proof.Gen.ReferenceIdeal
import Idealize.ShloMosaic.PureOps.Ideal

noncomputable section

namespace Cert.Gcn

open Idealize.ShloMosaic Cert.ReferenceIdeal Cert.ReferenceIdeal.Facts₀ Cert.ReferenceIdeal.Facts

variable {F : FTy → Type} [FloatOps F]

/-- The contents of a buffer of 32-bit integers of shape `s`. -/
abbrev IArr (F : FTy → Type) (s : Shape) := (⟨s, .i32⟩ : BufTy).Contents (Elt F)
/-- The contents of a buffer of f32 numbers of shape `s`. -/
abbrev FArr (F : FTy → Type) (s : Shape) := (⟨s, .f32⟩ : BufTy).Contents (Elt F)

/-- The sources of the 1700000 edges: row 0 of the edge list, then the self-loops 0 … 99999. -/
def edgeSrc (e : IArr F S2x1600000) : IArr F S1700000 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The targets of the 1700000 edges: row 1 of the edge list, then the self-loops. -/
def edgeDst (e : IArr F S2x1600000) : IArr F S1700000 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A vector of row numbers as the [1700000, 1] column a gather or scatter takes. -/
def col (v : IArr F S1700000) : IArr F S1700000x1 :=
  broadcastInDim S1700000x1 ![0] bcast_S1700000_S1700000x1_0 v

/-- A negative row number counts from the end: `v < 0 ? v + 100000 : v`. -/
def wrap (v : IArr F S1700000) : IArr F S1700000 :=
  select (cmpi .slt v (broadcastInDim S1700000 ![] bcast_S_S1700000 (constantI S_ 32 0#32)))
    (addi v (broadcastInDim S1700000 ![] bcast_S_S1700000 (constantI S_ 32 100000#32))) v

/-- `rsqrt (max deg 1)` per node, `deg` the number of edges into the node. -/
def invSqrtDeg (d : IArr F S1700000) : FArr F S100000 :=
  Host.rsqrt (maximumf
    (Host.scatterAdd scatter_S100000_S1700000x1_S1700000_n_0_0_1 (broadcastInDim S100000 ![] bcast_S_S100000 (constant S_ .f32 0x00000000#32))
      (col d) (broadcastInDim S1700000 ![] bcast_S_S1700000 (constant S_ .f32 0x3F800000#32)))
    (broadcastInDim S100000 ![] bcast_S_S100000 (constant S_ .f32 0x3F800000#32)))

/-- The weight of each edge: the product of its two endpoints' `rsqrt (max deg 1)`. -/
def edgeWeight (s d : IArr F S1700000) : FArr F S1700000 :=
  mulf (Host.gather gather_S100000_S1700000x1_S1700000_n_0_n_n_0_1_1 (invSqrtDeg d) (col (wrap s)))
    (Host.gather gather_S100000_S1700000x1_S1700000_n_0_n_n_0_1_1 (invSqrtDeg d) (col (wrap d)))

/-- One propagation over 128 features: gather the source rows, scale by the edge weight, add into the target rows. -/
def propagate128 (h : FArr F S100000x128) (s d : IArr F S1700000) (w : FArr F S1700000) : FArr F S100000x128 :=
  Host.scatterAdd scatter_S100000x128_S1700000x1_S1700000x128_1_0_0_1 (broadcastInDim S100000x128 ![] bcast_S_S100000x128 (constant S_ .f32 0x00000000#32))
    (col d)
    (mulf (Host.gather gather_S100000x128_S1700000x1_S1700000x128_1_0_n_n_0_1_1128 h (col (wrap s)))
      (broadcastInDim S1700000x128 ![0, 1] bcast_S1700000x1_S1700000x128_0_1 (broadcastInDim S1700000x1 ![0] bcast_S1700000_S1700000x1_0 w)))

/-- One propagation over 64 features. -/
def propagate64 (h : FArr F S100000x64) (s d : IArr F S1700000) (w : FArr F S1700000) : FArr F S100000x64 :=
  Host.scatterAdd scatter_S100000x64_S1700000x1_S1700000x64_1_0_0_1 (broadcastInDim S100000x64 ![] bcast_S_S100000x64 (constant S_ .f32 0x00000000#32))
    (col d)
    (mulf (Host.gather gather_S100000x64_S1700000x1_S1700000x64_1_0_n_n_0_1_164 h (col (wrap s)))
      (broadcastInDim S1700000x64 ![0, 1] bcast_S1700000x1_S1700000x64_0_1 (broadcastInDim S1700000x1 ![0] bcast_S1700000_S1700000x1_0 w)))

/-- The first dense product, [100000, 256] · [256, 128]. -/
def dense1 (x : FArr F S100000x256) (w : FArr F S256x128) : FArr F S100000x128 :=
  Host.dotGeneral dot_S100000x256_S256x128_S100000x128_1_0_0_1_n_n none x w

/-- The second dense product, [100000, 128] · [128, 64]. -/
def dense2 (x : FArr F S100000x128) (w : FArr F S128x64) : FArr F S100000x64 :=
  Host.dotGeneral dot_S100000x128_S128x64_S100000x64_1_0_0_1_n_n none x w

/-- `max (a + b) 0`, the bias a [1, 128] row added to every row of `a`. -/
def biasRelu (a : FArr F S100000x128) (b : FArr F S1x128) : FArr F S100000x128 :=
  maximumf (addf a (broadcastInDim S100000x128 ![0, 1] bcast_S1x128_S100000x128_0_1 b))
    (broadcastInDim S100000x128 ![] bcast_S_S100000x128 (constant S_ .f32 0x00000000#32))

/-- `a + b`, the bias a [1, 64] row added to every row of `a`. -/
def biased64 (a : FArr F S100000x64) (b : FArr F S1x64) : FArr F S100000x64 :=
  addf a (broadcastInDim S100000x64 ![0, 1] bcast_S1x64_S100000x64_0_1 b)

/-- Each row's maximum (folded from -inf, and once more against -inf). -/
def rowMax (o : FArr F S100000x64) : FArr F S100000 :=
  maximumf (broadcastInDim S100000 ![] bcast_S_S100000 (constant S_ .f32 0xFF800000#32))
    (Host.reduce FloatOps.maximumf o (constant S_ .f32 0xFF800000#32) reducesTo_S100000x64_S100000_d1 h_S_)

/-- Each entry minus its row's maximum. -/
def shifted (o : FArr F S100000x64) : FArr F S100000x64 :=
  subf o (broadcastInDim S100000x64 ![0, 1] bcast_S100000x1_S100000x64_0_1 (broadcastInDim S100000x1 ![0] bcast_S100000_S100000x1_0 (rowMax o)))

/-- `log_softmax` along each row: `(o - max) - log Σ exp (o - max)`. -/
def logSoftmax (o : FArr F S100000x64) : FArr F S100000x64 :=
  subf (shifted o) (broadcastInDim S100000x64 ![0, 1] bcast_S100000x1_S100000x64_0_1
    (Host.log (broadcastInDim S100000x1 ![0] bcast_S100000_S100000x1_0
      (Host.reduceAdd (Host.exp (shifted o)) (constant S_ .f32 0x00000000#32) reducesTo_S100000x64_S100000_d1 h_S_))))

/-- `log_softmax (a + b)`, the bias a [1, 64] row. -/
def biasLogSoftmax (a : FArr F S100000x64) (b : FArr F S1x64) : FArr F S100000x64 :=
  logSoftmax (biased64 a b)

/-- A length-128 bias as a [1, 128] row. -/
def row128 (b : FArr F S128) : FArr F S1x128 := broadcastInDim S1x128 ![1] bcast_S128_S1x128_1 b
/-- A length-64 bias as a [1, 64] row. -/
def row64 (b : FArr F S64) : FArr F S1x64 := broadcastInDim S1x64 ![1] bcast_S64_S1x64_1 b

/-- The whole network, as a function of the six argument arrays. -/
def network (x : FArr F S100000x256) (e : IArr F S2x1600000) (w1 : FArr F S256x128) (b1 : FArr F S128)
    (w2 : FArr F S128x64) (b2 : FArr F S64) : FArr F S100000x64 :=
  biasLogSoftmax
    (propagate64
      (dense2 (biasRelu (propagate128 (dense1 x w1) (edgeSrc e) (edgeDst e) (edgeWeight (edgeSrc e) (edgeDst e))) (row128 b1)) w2)
      (edgeSrc e) (edgeDst e) (edgeWeight (edgeSrc e) (edgeDst e)))
    (row64 b2)

end Cert.Gcn

end
-- ==== Proof.KernelRun.lean ====
/-
  The idealized kernel's run with its RESULT named. The program is four pipelined regions among three stretches of
  host operations; the buffer contents at the seven segment boundaries are a fold from the launch memory, and the
  last of them, `W7`, is what every unscoped buffer holds when @main returns. So every weakly fair execution
  terminates with the result buffer at `W7` read at that buffer, and the six argument arrays as launched.
-/
import proofs.«101620_j6090263626106_1_alg».proof.Proof.Gen.KernelIdeal.Frame

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this one
set_option backward.isDefEq.respectTransparency.types false in
/-- Every weakly fair execution of @main terminates, nothing faulting; the result buffer ends at the last boundary's
    contents and the argument arrays as launched. -/
theorem run_named : θ_run defs (onTc (τ := τ) (main (F := F))) ⟨m, fun _ => 0, ρ⟩ (fun r => ∀ c : Dev nD,
      r.2.mem ((c.tc : Thread nD τ).loc main_v60) = W7 m ρ c (Proc.devRef .tc main_v60) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Gcn

end
-- ==== Proof.KernelHost.lean ====
/-
  The idealized kernel's three stretches of host operations, each read as a function of the buffer contents it starts
  from. The first stretch builds the edge lists (sources, targets: the edge list's two rows, each followed by the
  self-loops) and the edge weights; the second and the third each gather the rows of a node table by source, scale them by
  the edge weights and add them into the rows of their targets, and re-lay a bias vector as a one-row matrix. A stretch
  leaves every buffer it does not write as it found it. Every right-hand side is the specification's function: the two
  programs spell these operations identically, so the equations hold by unfolding.
-/
import proofs.«101620_j6090263626106_1_alg».proof.Proof.Gen.KernelIdeal.Launch
import proofs.«101620_j6090263626106_1_alg».proof.Proof.Spec
import Idealize.ShloMosaic.Lib.StableHlo.Run
import Idealize.ShloMosaic.Lib.Pipeline.Value

noncomputable section

namespace Cert.KernelIdeal.Gcn

open Idealize.ShloMosaic Idealize.ShloMosaic.TcCoe Idealize.SL.Sem Idealize.ShloMosaic.StableHlo
open Cert.KernelIdeal Cert.KernelIdeal.Gen

variable {F : FTy → Type} [FloatOps F]
variable (W : Valuation τ sig (Elt F))

/-! ## A vector as a one-row matrix

The kernel re-lays a bias vector `b` of length `n` as the [1, n] matrix by a reshape, the reference by a broadcast
along axis 1: both read `b` at the column. -/

theorem row128_of_reshape {α : Type} (b : Cert.ReferenceIdeal.S128.Idx → α) (h : S128.ShapeCasts S1x128)
    (h' : Cert.ReferenceIdeal.S128.BroadcastsInDim Cert.ReferenceIdeal.S1x128 (![1] : Fin 1 → Fin Cert.ReferenceIdeal.S1x128.rank)) :
    shapeCast S1x128 b h = broadcastInDim Cert.ReferenceIdeal.S1x128 ![1] h' b := by
  funext j
  have hj0 : (j 0).val < 1 := (j 0).isLt
  let k : S128.Idx := fun a => match a with | ⟨0, _⟩ => ⟨(j 1).val, (j 1).isLt⟩
  rw [shapeCast_apply b h j k (by rw [Shape.rowMajor_val_one, Shape.rowMajor_val_two]; show (j 1).val = (j 0).val * 128 + (j 1).val; omega)]
  exact (broadcastInDim_apply ![1] h' b j k (fun a => by
    match a with
    | ⟨0, _⟩ => show (j 1).val = if (128 : Nat) = 1 then 0 else (j 1).val; rw [if_neg (by decide)])).symm

theorem row64_of_reshape {α : Type} (b : Cert.ReferenceIdeal.S64.Idx → α) (h : S64.ShapeCasts S1x64)
    (h' : Cert.ReferenceIdeal.S64.BroadcastsInDim Cert.ReferenceIdeal.S1x64 (![1] : Fin 1 → Fin Cert.ReferenceIdeal.S1x64.rank)) :
    shapeCast S1x64 b h = broadcastInDim Cert.ReferenceIdeal.S1x64 ![1] h' b := by
  funext j
  have hj0 : (j 0).val < 1 := (j 0).isLt
  let k : S64.Idx := fun a => match a with | ⟨0, _⟩ => ⟨(j 1).val, (j 1).isLt⟩
  rw [shapeCast_apply b h j k (by rw [Shape.rowMajor_val_one, Shape.rowMajor_val_two]; show (j 1).val = (j 0).val * 64 + (j 1).val; omega)]
  exact (broadcastInDim_apply ![1] h' b j k (fun a => by
    match a with
    | ⟨0, _⟩ => show (j 1).val = if (64 : Nat) = 1 then 0 else (j 1).val; rw [if_neg (by decide)])).symm

/-! ## The first stretch: the edge lists and the edge weights -/

theorem first_src : after hostOps0 W (Proc.devRef .tc main_v3) = Cert.Gcn.edgeSrc (F := F) (W (Proc.devRef .tc main_arg1)) := by
  after_results_simp
  rfl

theorem first_dst : after hostOps0 W (Proc.devRef .tc main_v6) = Cert.Gcn.edgeDst (F := F) (W (Proc.devRef .tc main_arg1)) := by
  after_results_simp
  rfl

theorem first_weight : after hostOps0 W (Proc.devRef .tc main_v28)
    = Cert.Gcn.edgeWeight (F := F) (Cert.Gcn.edgeSrc (W (Proc.devRef .tc main_arg1))) (Cert.Gcn.edgeDst (W (Proc.devRef .tc main_arg1))) := by
  after_results_simp
  rfl

theorem first_arg0 : after hostOps0 W (Proc.devRef .tc main_arg0) = W (Proc.devRef .tc main_arg0) := by after_results_simp
theorem first_arg2 : after hostOps0 W (Proc.devRef .tc main_arg2) = W (Proc.devRef .tc main_arg2) := by after_results_simp
theorem first_arg3 : after hostOps0 W (Proc.devRef .tc main_arg3) = W (Proc.devRef .tc main_arg3) := by after_results_simp
theorem first_arg4 : after hostOps0 W (Proc.devRef .tc main_arg4) = W (Proc.devRef .tc main_arg4) := by after_results_simp
theorem first_arg5 : after hostOps0 W (Proc.devRef .tc main_arg5) = W (Proc.devRef .tc main_arg5) := by after_results_simp

/-! ## The second stretch: propagation over 128 features, and the first bias as a row -/

theorem second_agg : after hostOps1 W (Proc.devRef .tc main_v42)
    = Cert.Gcn.propagate128 (F := F) (W (Proc.devRef .tc main_v29)) (W (Proc.devRef .tc main_v3)) (W (Proc.devRef .tc main_v6)) (W (Proc.devRef .tc main_v28)) := by
  after_results_simp
  rfl

theorem second_bias : after hostOps1 W (Proc.devRef .tc main_v43)
    = Cert.Gcn.row128 (F := F) (W (Proc.devRef .tc main_arg3)) := by
  after_results_simp
  exact row128_of_reshape _ _ _

theorem second_src : after hostOps1 W (Proc.devRef .tc main_v3) = W (Proc.devRef .tc main_v3) := by after_results_simp
theorem second_dst : after hostOps1 W (Proc.devRef .tc main_v6) = W (Proc.devRef .tc main_v6) := by after_results_simp
theorem second_weight : after hostOps1 W (Proc.devRef .tc main_v28) = W (Proc.devRef .tc main_v28) := by after_results_simp
theorem second_arg4 : after hostOps1 W (Proc.devRef .tc main_arg4) = W (Proc.devRef .tc main_arg4) := by after_results_simp
theorem second_arg5 : after hostOps1 W (Proc.devRef .tc main_arg5) = W (Proc.devRef .tc main_arg5) := by after_results_simp

/-! ## The third stretch: propagation over 64 features, and the second bias as a row -/

theorem third_agg : after hostOps3 W (Proc.devRef .tc main_v58)
    = Cert.Gcn.propagate64 (F := F) (W (Proc.devRef .tc main_v45)) (W (Proc.devRef .tc main_v3)) (W (Proc.devRef .tc main_v6)) (W (Proc.devRef .tc main_v28)) := by
  after_results_simp
  rfl

theorem third_bias : after hostOps3 W (Proc.devRef .tc main_v59)
    = Cert.Gcn.row64 (F := F) (W (Proc.devRef .tc main_arg5)) := by
  after_results_simp
  exact row64_of_reshape _ _ _

end Cert.KernelIdeal.Gcn

end
-- ==== Proof.KernelValue.lean ====
/-
  The idealized kernel's result, as the specification's network of the six argument arrays.

  The buffer contents at the boundaries between the kernel's segments are a fold from the launch memory: a stretch of
  host operations rewrites the buffers it writes, a pipelined region leaves its output array at what its grid points
  wrote back and every other buffer as it was. Read backwards from the result: the last region's output is the bias and
  log-softmax of the second propagation; that is a host stretch over the second dense product, the output of the third
  region; its operand is the second region's output, bias and relu of the first propagation; that is a host stretch
  over the first region's output, the first dense product of two argument arrays. The edge lists and weights are written
  once, by the first stretch, and nothing later writes them; the arguments are never written.

  What each region's output array holds is taken here as a hypothesis, one per region, stated for arbitrary contents at
  the region's entry; the regions' own modules prove them.
-/
import proofs.«101620_j6090263626106_1_alg».proof.Proof.Gen.KernelIdeal.Frame
import proofs.«101620_j6090263626106_1_alg».proof.Proof.KernelHost

noncomputable section

namespace Cert.KernelIdeal.Gcn

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The four regions' output arrays, each as the specification's function of its two operand arrays at the region's entry. -/
structure RegionValues : Prop where
  dense1 : ∀ (V : (c : Dev nD) → (b : Ref sig .tc) → Buf (Elt Ideal) ((c : Thread nD τ).loc b)) (c : Dev nD),
    (dat0 (F := Ideal) V c).arrAt 2 cfg0.N = Cert.Gcn.dense1 (F := Ideal) (V c main_arg0) (V c main_arg2)
  biasRelu : ∀ (V : (c : Dev nD) → (b : Ref sig .tc) → Buf (Elt Ideal) ((c : Thread nD τ).loc b)) (c : Dev nD),
    (dat1 (F := Ideal) V c).arrAt 2 cfg1.N = Cert.Gcn.biasRelu (F := Ideal) (V c main_v42) (V c main_v43)
  dense2 : ∀ (V : (c : Dev nD) → (b : Ref sig .tc) → Buf (Elt Ideal) ((c : Thread nD τ).loc b)) (c : Dev nD),
    (dat2 (F := Ideal) V c).arrAt 2 cfg2.N = Cert.Gcn.dense2 (F := Ideal) (V c main_v44) (V c main_arg4)
  biasLogSoftmax : ∀ (V : (c : Dev nD) → (b : Ref sig .tc) → Buf (Elt Ideal) ((c : Thread nD τ).loc b)) (c : Dev nD),
    (dat3 (F := Ideal) V c).arrAt 2 cfg3.N = Cert.Gcn.biasLogSoftmax (F := Ideal) (V c main_v58) (V c main_v59)

/-! ## Buffers that are written once and then kept -/

/-- The sources of the edges, as the second propagation finds them. -/
theorem src_late (c : Dev nD) : W5 m ρ c (Proc.devRef .tc main_v3) = Cert.Gcn.edgeSrc (F := Ideal) (m ((c : Thread nD τ).loc main_arg1)) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := second_src (W2 m ρ c)
    _ = W1 m ρ c (Proc.devRef .tc main_v3) := W2_of_ne m ρ c main_v3 (by decide)
    _ = _ := first_src (W0 m ρ c)
theorem dst_late (c : Dev nD) : W5 m ρ c (Proc.devRef .tc main_v6) = Cert.Gcn.edgeDst (F := Ideal) (m ((c : Thread nD τ).loc main_arg1)) :=
  calc W5 m ρ c (Proc.devRef .tc main_v6)
    _ = W4 m ρ c (Proc.devRef .tc main_v6) := W5_of_ne m ρ c main_v6 (by decide)
    _ = W3 m ρ c (Proc.devRef .tc main_v6) := W4_of_ne m ρ c main_v6 (by decide)
    _ = W2 m ρ c (Proc.devRef .tc main_v6) := second_dst (W2 m ρ c)
    _ = W1 m ρ c (Proc.devRef .tc main_v6) := W2_of_ne m ρ c main_v6 (by decide)
    _ = _ := first_dst (W0 m ρ c)
theorem weight_late (c : Dev nD) : W5 m ρ c (Proc.devRef .tc main_v28)
    = Cert.Gcn.edgeWeight (F := Ideal) (Cert.Gcn.edgeSrc (m ((c : Thread nD τ).loc main_arg1))) (Cert.Gcn.edgeDst (m ((c : Thread nD τ).loc main_arg1))) :=
  calc W5 m ρ c (Proc.devRef .tc main_v28)
    _ = W4 m ρ c (Proc.devRef .tc main_v28) := W5_of_ne m ρ c main_v28 (by decide)
    _ = W3 m ρ c (Proc.devRef .tc main_v28) := W4_of_ne m ρ c main_v28 (by decide)
    _ = W2 m ρ c (Proc.devRef .tc main_v28) := second_weight (W2 m ρ c)
    _ = W1 m ρ c (Proc.devRef .tc main_v28) := W2_of_ne m ρ c main_v28 (by decide)
    _ = _ := first_weight (W0 m ρ c)
/-- … and as the first propagation finds them. -/
theorem src_early (c : Dev nD) : W2 m ρ c (Proc.devRef .tc main_v3) = Cert.Gcn.edgeSrc (F := Ideal) (m ((c : Thread nD τ).loc main_arg1)) :=
  (W2_of_ne m ρ c main_v3 (by decide)).trans (first_src (W0 m ρ c))
theorem dst_early (c : Dev nD) : W2 m ρ c (Proc.devRef .tc main_v6) = Cert.Gcn.edgeDst (F := Ideal) (m ((c : Thread nD τ).loc main_arg1)) :=
  (W2_of_ne m ρ c main_v6 (by decide)).trans (first_dst (W0 m ρ c))
theorem weight_early (c : Dev nD) : W2 m ρ c (Proc.devRef .tc main_v28)
    = Cert.Gcn.edgeWeight (F := Ideal) (Cert.Gcn.edgeSrc (m ((c : Thread nD τ).loc main_arg1))) (Cert.Gcn.edgeDst (m ((c : Thread nD τ).loc main_arg1))) :=
  (W2_of_ne m ρ c main_v28 (by decide)).trans (first_weight (W0 m ρ c))

/-! ## The arguments, where each is read -/

theorem arg0_at (c : Dev nD) : W1 m ρ c (Proc.devRef .tc main_arg0) = m ((c : Thread nD τ).loc main_arg0) := first_arg0 (W0 m ρ c)
theorem arg2_at (c : Dev nD) : W1 m ρ c (Proc.devRef .tc main_arg2) = m ((c : Thread nD τ).loc main_arg2) := first_arg2 (W0 m ρ c)
theorem arg3_at (c : Dev nD) : W2 m ρ c (Proc.devRef .tc main_arg3) = m ((c : Thread nD τ).loc main_arg3) :=
  (W2_of_ne m ρ c main_arg3 (by decide)).trans (first_arg3 (W0 m ρ c))
theorem arg4_at (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := second_arg4 (W2 m ρ c)
    _ = W1 m ρ c (Proc.devRef .tc main_arg4) := W2_of_ne m ρ c main_arg4 (by decide)
    _ = _ := first_arg4 (W0 m ρ c)
theorem arg5_at (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := second_arg5 (W2 m ρ c)
    _ = W1 m ρ c (Proc.devRef .tc main_arg5) := W2_of_ne m ρ c main_arg5 (by decide)
    _ = _ := first_arg5 (W0 m ρ c)

/-! ## The result -/

/-- The first dense product, where the first propagation reads it. -/
theorem hidden1_at (R : RegionValues) (c : Dev nD) : W2 m ρ c (Proc.devRef .tc main_v29)
    = Cert.Gcn.dense1 (F := Ideal) (m ((c : Thread nD τ).loc main_arg0)) (m ((c : Thread nD τ).loc main_arg2)) := by
  refine ((W2_arr m ρ c 2).trans (R.dense1 (V1 m ρ) c)).trans ?_
  show Cert.Gcn.dense1 (W1 m ρ c (Proc.devRef .tc main_arg0)) (W1 m ρ c (Proc.devRef .tc main_arg2)) = _
  rw [arg0_at, arg2_at]

/-- The first layer's output (after bias and relu), where the second dense product reads it. -/
theorem layer1_at (R : RegionValues) (c : Dev nD) : W4 m ρ c (Proc.devRef .tc main_v44)
    = Cert.Gcn.biasRelu (F := Ideal)
        (Cert.Gcn.propagate128 (Cert.Gcn.dense1 (m ((c : Thread nD τ).loc main_arg0)) (m ((c : Thread nD τ).loc main_arg2)))
          (Cert.Gcn.edgeSrc (m ((c : Thread nD τ).loc main_arg1))) (Cert.Gcn.edgeDst (m ((c : Thread nD τ).loc main_arg1)))
          (Cert.Gcn.edgeWeight (Cert.Gcn.edgeSrc (m ((c : Thread nD τ).loc main_arg1))) (Cert.Gcn.edgeDst (m ((c : Thread nD τ).loc main_arg1)))))
        (Cert.Gcn.row128 (m ((c : Thread nD τ).loc main_arg3))) := by
  refine ((W4_arr m ρ c 2).trans (R.biasRelu (V3 m ρ) c)).trans ?_
  show Cert.Gcn.biasRelu (after hostOps1 (W2 m ρ c) (Proc.devRef .tc main_v42)) (after hostOps1 (W2 m ρ c) (Proc.devRef .tc main_v43)) = _
  rw [second_agg, second_bias, hidden1_at m ρ R, src_early, dst_early, weight_early, arg3_at]

/-- The second dense product, where the second propagation reads it. -/
theorem hidden2_at (R : RegionValues) (c : Dev nD) : W5 m ρ c (Proc.devRef .tc main_v45)
    = Cert.Gcn.dense2 (F := Ideal) (W4 m ρ c (Proc.devRef .tc main_v44)) (m ((c : Thread nD τ).loc main_arg4)) := by
  refine ((W5_arr m ρ c 2).trans (R.dense2 (V4 m ρ) c)).trans ?_
  show Cert.Gcn.dense2 (W4 m ρ c (Proc.devRef .tc main_v44)) (W4 m ρ c (Proc.devRef .tc main_arg4)) = _
  rw [arg4_at]

/-- The result buffer, when @main returns, holds the network of the six argument arrays as launched. -/
theorem result_eq (R : RegionValues) (c : Dev nD) : W7 m ρ c (Proc.devRef .tc main_v60)
    = Cert.Gcn.network (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine ((W7_arr m ρ c 2).trans (R.biasLogSoftmax (V6 m ρ) c)).trans ?_
  show Cert.Gcn.biasLogSoftmax (after hostOps3 (W5 m ρ c) (Proc.devRef .tc main_v58)) (after hostOps3 (W5 m ρ c) (Proc.devRef .tc main_v59)) = _
  rw [third_agg, third_bias, hidden2_at m ρ R, layer1_at m ρ R, src_late, dst_late, weight_late, arg5_at]
  rfl

end Cert.KernelIdeal.Gcn

end
-- ==== Proof.RegionDense.lean ====
/-
  The two dense products of the graph convolution, block by block.

  Regions 0 and 2 each multiply a tall array by a small weight matrix: the grid has 20 points, point t loads rows
  5000·t … 5000·t + 4999 of the tall operand and the whole weight matrix, forms the product of the two blocks (a sum over
  the contracted axis into a zero accumulator; at the exact instance the roundings to bf16 are the identity), and writes
  it back as rows 5000·t … 5000·t + 4999 of the output. Row r of the whole product x · w depends on row r of x alone, so
  the block written at point t is the block of x · w at those rows, and the twenty blocks tile the output: the array the
  region leaves is x · w.
-/
import proofs.«101620_j6090263626106_1_alg».proof.Proof.Gen.KernelIdeal.Frame
import proofs.«101620_j6090263626106_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.DenseRegions

open Idealize.ShloMosaic Idealize.ShloMosaic.TcCoe Idealize.SL.Sem
open Idealize.ShloMosaic.Pipeline (Dat)
open Idealize.ShloMosaic.ValueIdx
open Cert.KernelIdeal Cert.KernelIdeal.Gen

/-! ## A product with one contracted axis, read at an index -/

/-- For dimension numbers over [M, K] · [K, N] → [M, N] whose operand indices at output index (p, q) and contraction
    position k are (p, k) and (k, q) — the four coordinate facts `l0 l1 r0 r1` —, the sum over the contraction index
    of the operands' products is the sum over k : Fin K of x[p, k] · w[k, q]. -/
theorem sum_contr_eq {M K N : Nat} (d : DotDims ⟨2, ![M, K]⟩ ⟨2, ![K, N]⟩ ⟨2, ![M, N]⟩)
    (hr : d.contr.rank = 1) (hs : d.contr.size ⟨0, by omega⟩ = K)
    (l0 : ∀ (j : (⟨2, ![M, N]⟩ : Shape).Idx) (k : d.contr.Idx), (d.lhsIdx j k 0).val = (j 0).val)
    (l1 : ∀ (j : (⟨2, ![M, N]⟩ : Shape).Idx) (k : d.contr.Idx), (d.lhsIdx j k 1).val = (k ⟨0, by omega⟩).val)
    (r0 : ∀ (j : (⟨2, ![M, N]⟩ : Shape).Idx) (k : d.contr.Idx), (d.rhsIdx j k 0).val = (k ⟨0, by omega⟩).val)
    (r1 : ∀ (j : (⟨2, ![M, N]⟩ : Shape).Idx) (k : d.contr.Idx), (d.rhsIdx j k 1).val = (j 1).val)
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ k : Fin K, x (ix2 p k) * w (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-! ## The first product: [100000, 256] · [256, 128] -/

/-! The operand indices of the block product's dimension numbers ([5000, 256] · [256, 128]). -/

theorem blk1_l0 (i : S5000x128.Idx) (k : dot_S5000x256_S256x128_S5000x128_1_0_0_1_n_n.contr.Idx) :
    (dot_S5000x256_S256x128_S5000x128_1_0_0_1_n_n.lhsIdx i k 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem blk1_l1 (i : S5000x128.Idx) (k : dot_S5000x256_S256x128_S5000x128_1_0_0_1_n_n.contr.Idx) :
    (dot_S5000x256_S256x128_S5000x128_1_0_0_1_n_n.lhsIdx i k 1).val = (k ⟨0, by decide⟩).val :=
  dot_S5000x256_S256x128_S5000x128_1_0_0_1_n_n.lhsIdx_val_of_single rfl i k
theorem blk1_r0 (i : S5000x128.Idx) (k : dot_S5000x256_S256x128_S5000x128_1_0_0_1_n_n.contr.Idx) :
    (dot_S5000x256_S256x128_S5000x128_1_0_0_1_n_n.rhsIdx i k 0).val = (k ⟨0, by decide⟩).val :=
  dot_S5000x256_S256x128_S5000x128_1_0_0_1_n_n.rhsIdx_val_of_single rfl i k
theorem blk1_r1 (i : S5000x128.Idx) (k : dot_S5000x256_S256x128_S5000x128_1_0_0_1_n_n.contr.Idx) :
    (dot_S5000x256_S256x128_S5000x128_1_0_0_1_n_n.rhsIdx i k 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-! The operand indices of the whole product's dimension numbers ([100000, 256] · [256, 128]). -/

theorem arr1_l0 (i : Cert.ReferenceIdeal.S100000x128.Idx) (k : Cert.ReferenceIdeal.dot_S100000x256_S256x128_S100000x128_1_0_0_1_n_n.contr.Idx) :
    (Cert.ReferenceIdeal.dot_S100000x256_S256x128_S100000x128_1_0_0_1_n_n.lhsIdx i k 0).val = (i 0).val := by
  unfold DotDims.lhsIdx
  rw [dif_neg (show ¬(0 : Fin Cert.ReferenceIdeal.S100000x256.rank) ∈ Cert.ReferenceIdeal.dot_S100000x256_S256x128_S100000x128_1_0_0_1_n_n.lhsBatch by decide), dif_pos (show (0 : Fin Cert.ReferenceIdeal.S100000x256.rank) ∈ Cert.ReferenceIdeal.dot_S100000x256_S256x128_S100000x128_1_0_0_1_n_n.lhsNonContracting by decide)]
  rfl
theorem arr1_l1 (i : Cert.ReferenceIdeal.S100000x128.Idx) (k : Cert.ReferenceIdeal.dot_S100000x256_S256x128_S100000x128_1_0_0_1_n_n.contr.Idx) :
    (Cert.ReferenceIdeal.dot_S100000x256_S256x128_S100000x128_1_0_0_1_n_n.lhsIdx i k 1).val = (k ⟨0, by decide⟩).val :=
  Cert.ReferenceIdeal.dot_S100000x256_S256x128_S100000x128_1_0_0_1_n_n.lhsIdx_val_of_single rfl i k
theorem arr1_r0 (i : Cert.ReferenceIdeal.S100000x128.Idx) (k : Cert.ReferenceIdeal.dot_S100000x256_S256x128_S100000x128_1_0_0_1_n_n.contr.Idx) :
    (Cert.ReferenceIdeal.dot_S100000x256_S256x128_S100000x128_1_0_0_1_n_n.rhsIdx i k 0).val = (k ⟨0, by decide⟩).val :=
  Cert.ReferenceIdeal.dot_S100000x256_S256x128_S100000x128_1_0_0_1_n_n.rhsIdx_val_of_single rfl i k
theorem arr1_r1 (i : Cert.ReferenceIdeal.S100000x128.Idx) (k : Cert.ReferenceIdeal.dot_S100000x256_S256x128_S100000x128_1_0_0_1_n_n.contr.Idx) :
    (Cert.ReferenceIdeal.dot_S100000x256_S256x128_S100000x128_1_0_0_1_n_n.rhsIdx i k 1).val = (i 1).val := by
  unfold DotDims.rhsIdx
  rw [dif_neg (show ¬(1 : Fin Cert.ReferenceIdeal.S256x128.rank) ∈ Cert.ReferenceIdeal.dot_S100000x256_S256x128_S100000x128_1_0_0_1_n_n.rhsBatch by decide), dif_pos (show (1 : Fin Cert.ReferenceIdeal.S256x128.rank) ∈ Cert.ReferenceIdeal.dot_S100000x256_S256x128_S100000x128_1_0_0_1_n_n.rhsNonContracting by decide)]
  rfl

/-- What the body stores, at row p and column q of the block: Σ_k x[p, k] · w[k, q] — the roundings are the identity
    and the accumulator is zero. -/
theorem blockProduct1_apply (x : Vec Ideal S5000x256 .f32) (w : Vec Ideal S256x128 .f32) (p : Fin 5000) (q : Fin 128) :
    k0_pay1 (F := Ideal) x w (ix2 p q) = ∑ k : Fin 256, x (ix2 p k) * w (ix2 k q) := by
  unfold k0_pay1
  refine (Ideal.matmul_constant_zero_apply dot_S5000x256_S256x128_S5000x128_1_0_0_1_n_n none _ _ (ix2 p q)).trans ?_
  exact sum_contr_eq dot_S5000x256_S256x128_S5000x128_1_0_0_1_n_n rfl rfl blk1_l0 blk1_l1 blk1_r0 blk1_r1 x w p q

/-- The whole product at row r and column q: Σ_k x[r, k] · w[k, q]. -/
theorem dense1_apply (x : Vec Ideal S100000x256 .f32) (w : Vec Ideal S256x128 .f32) (r : Fin 100000) (q : Fin 128) :
    Cert.Gcn.dense1 (F := Ideal) x w (ix2 r q) = ∑ k : Fin 256, x (ix2 r k) * w (ix2 k q) := by
  unfold Cert.Gcn.dense1
  simp only [Host.dotGeneral]
  rw [Ideal.dotGeneral_apply]
  exact sum_contr_eq Cert.ReferenceIdeal.dot_S100000x256_S256x128_S100000x128_1_0_0_1_n_n rfl rfl arr1_l0 arr1_l1 arr1_r0 arr1_r1 x w r q

section Region0
variable (V : (c : Dev nD) → (b : Ref sig .tc) → Buf (Elt Ideal) ((c : Thread nD τ).loc b))

/-- The offset of a whole-block access. -/
theorem zero_offset : (![0, 0] : Fin 2 → Nat) = fun _ => 0 := funext fun a => by fin_cases a <;> rfl

/-- The printed index maps, decided over the grid: at point t the tall operand's block and the output's block are both
    row block t (column block 0), and the weight matrix's block is the whole matrix. -/
theorem rowBlocks1 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the whole product of the two operand arrays as the region finds them. -/
theorem flushed_dense1 (c : Dev nD) (t : Fin cfg0.N) :
    (dat0 (F := Ideal) V c).flushed 2 t
      = ((cfg0.win 2).blk t).view.read (Elt Ideal) (Cert.Gcn.dense1 (F := Ideal) (V c main_arg0) (V c main_arg2)) := by
  show (cfg0.win 2).cut (grid0.coords t) ((dat0 V c).after 2 t) = _
  rw [after0_2]
  unfold out0_2
  rw [View.canon_unit_zero zero_offset]
  simp only [View.ld_unit_zero (S := S5000x256) zero_offset, View.ld_unit_zero (S := S256x128) zero_offset]
  obtain ⟨e0, e1, e2, e3, e4, e5⟩ := rowBlocks1 t
  have ht : t.val < 20 := t.isLt
  funext j
  obtain ⟨p, q, rfl⟩ : ∃ (p : Fin 5000) (q : Fin 128), j = ix2 p q := ⟨j 0, j 1, eq_ix2 j⟩
  refine (blockProduct1_apply (iblk0 V c 0 t) (iblk0 V c 1 t) p q).trans ?_
  -- the row of the array this block row is
  have hp : p.val < 5000 := p.isLt
  have hr : t.val * 5000 + p.val < 100000 := by omega
  have hemb : ((cfg0.win 2).blk t).view.emb (ix2 p q) = (ix2 (⟨t.val * 5000 + p.val, hr⟩ : Fin 100000) q : S100000x128.Idx) := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  refine Eq.trans ?_ (congrArg (Cert.Gcn.dense1 (F := Ideal) (V c main_arg0) (V c main_arg2)) hemb).symm
  refine Eq.trans ?_ (dense1_apply (V c main_arg0) (V c main_arg2) ⟨t.val * 5000 + p.val, hr⟩ q).symm
  refine Finset.sum_congr rfl fun k _ => ?_
  have h0 : iblk0 V c 0 t (ix2 p k) = V c main_arg0 (ix2 (⟨t.val * 5000 + p.val, hr⟩ : Fin 100000) k : S100000x256.Idx) := by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 256 + 1 * k.val = k.val; omega
  have h1 : iblk0 V c 1 t (ix2 k q) = V c main_arg2 (ix2 k q : S256x128.Idx) := by
    show V c main_arg2 (((cfg0.win 1).blk t).view.emb (ix2 k q)) = _
    refine congrArg (V c main_arg2) ?_
    funext a; apply Fin.ext
    match a with
    | ⟨0, _⟩ => show win0_1.index t (0 : Fin 2) * 256 + 1 * k.val = k.val; omega
    | ⟨1, _⟩ => show win0_1.index t (1 : Fin 2) * 128 + 1 * q.val = q.val; omega
  rw [h0, h1]

end Region0

section Region0Array
variable (V : (c : Dev nD) → (b : Ref sig .tc) → Buf (Elt Ideal) ((c : Thread nD τ).loc b))

/-- An index of the output array is in point t's block iff each coordinate is in the block's range on its axis. -/
theorem mem_rowBlock1 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- The twenty row blocks tile the output: row r lies in the block of point r / 5000. -/
theorem rowBlocks1_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have htv : t.val = (i 0).val / 5000 := rfl
  obtain ⟨e0, e1, e2, e3, e4, e5⟩ := rowBlocks1 t
  refine ⟨t, flush0_2 t, ?_⟩
  rw [mem_rowBlock1]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE ARRAY region 0 leaves: the whole product of its two operand arrays. -/
theorem dense1_final (c : Dev nD) :
    (dat0 (F := Ideal) V c).arrAt 2 cfg0.N = Cert.Gcn.dense1 (F := Ideal) (V c main_arg0) (V c main_arg2) :=
  (dat0 (F := Ideal) V c).arrAt_eq_of_cover 2 (Cert.Gcn.dense1 (F := Ideal) (V c main_arg0) (V c main_arg2))
    (fun t _ => flushed_dense1 V c t) rowBlocks1_cover

end Region0Array

/-! ## The second product: [100000, 128] · [128, 64] -/

/-! The operand indices of the block product's dimension numbers ([5000, 128] · [128, 64]). -/

theorem blk2_l0 (i : S5000x64.Idx) (k : dot_S5000x128_S128x64_S5000x64_1_0_0_1_n_n.contr.Idx) :
    (dot_S5000x128_S128x64_S5000x64_1_0_0_1_n_n.lhsIdx i k 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem blk2_l1 (i : S5000x64.Idx) (k : dot_S5000x128_S128x64_S5000x64_1_0_0_1_n_n.contr.Idx) :
    (dot_S5000x128_S128x64_S5000x64_1_0_0_1_n_n.lhsIdx i k 1).val = (k ⟨0, by decide⟩).val :=
  dot_S5000x128_S128x64_S5000x64_1_0_0_1_n_n.lhsIdx_val_of_single rfl i k
theorem blk2_r0 (i : S5000x64.Idx) (k : dot_S5000x128_S128x64_S5000x64_1_0_0_1_n_n.contr.Idx) :
    (dot_S5000x128_S128x64_S5000x64_1_0_0_1_n_n.rhsIdx i k 0).val = (k ⟨0, by decide⟩).val :=
  dot_S5000x128_S128x64_S5000x64_1_0_0_1_n_n.rhsIdx_val_of_single rfl i k
theorem blk2_r1 (i : S5000x64.Idx) (k : dot_S5000x128_S128x64_S5000x64_1_0_0_1_n_n.contr.Idx) :
    (dot_S5000x128_S128x64_S5000x64_1_0_0_1_n_n.rhsIdx i k 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! The operand indices of the whole product's dimension numbers ([100000, 128] · [128, 64]). -/

theorem arr2_l0 (i : Cert.ReferenceIdeal.S100000x64.Idx) (k : Cert.ReferenceIdeal.dot_S100000x128_S128x64_S100000x64_1_0_0_1_n_n.contr.Idx) :
    (Cert.ReferenceIdeal.dot_S100000x128_S128x64_S100000x64_1_0_0_1_n_n.lhsIdx i k 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
theorem arr2_l1 (i : Cert.ReferenceIdeal.S100000x64.Idx) (k : Cert.ReferenceIdeal.dot_S100000x128_S128x64_S100000x64_1_0_0_1_n_n.contr.Idx) :
    (Cert.ReferenceIdeal.dot_S100000x128_S128x64_S100000x64_1_0_0_1_n_n.lhsIdx i k 1).val = (k ⟨0, by decide⟩).val :=
  Cert.ReferenceIdeal.dot_S100000x128_S128x64_S100000x64_1_0_0_1_n_n.lhsIdx_val_of_single rfl i k
theorem arr2_r0 (i : Cert.ReferenceIdeal.S100000x64.Idx) (k : Cert.ReferenceIdeal.dot_S100000x128_S128x64_S100000x64_1_0_0_1_n_n.contr.Idx) :
    (Cert.ReferenceIdeal.dot_S100000x128_S128x64_S100000x64_1_0_0_1_n_n.rhsIdx i k 0).val = (k ⟨0, by decide⟩).val :=
  Cert.ReferenceIdeal.dot_S100000x128_S128x64_S100000x64_1_0_0_1_n_n.rhsIdx_val_of_single rfl i k
theorem arr2_r1 (i : Cert.ReferenceIdeal.S100000x64.Idx) (k : Cert.ReferenceIdeal.dot_S100000x128_S128x64_S100000x64_1_0_0_1_n_n.contr.Idx) :
    (Cert.ReferenceIdeal.dot_S100000x128_S128x64_S100000x64_1_0_0_1_n_n.rhsIdx i k 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-- What the body stores, at row p and column q of the block: Σ_k x[p, k] · w[k, q] — the cast to the block's own shape
    and the roundings are the identity and the accumulator is zero. -/
theorem blockProduct2_apply (x : Vec Ideal S5000x128 .f32) (w : Vec Ideal S128x64 .f32) (p : Fin 5000) (q : Fin 64) :
    k2_pay1 (F := Ideal) x w (ix2 p q) = ∑ k : Fin 128, x (ix2 p k) * w (ix2 k q) := by
  unfold k2_pay1
  rw [shapeCast_self]
  refine (Ideal.matmul_constant_zero_apply dot_S5000x128_S128x64_S5000x64_1_0_0_1_n_n none _ _ (ix2 p q)).trans ?_
  exact sum_contr_eq dot_S5000x128_S128x64_S5000x64_1_0_0_1_n_n rfl rfl blk2_l0 blk2_l1 blk2_r0 blk2_r1 x w p q

/-- The whole product at row r and column q: Σ_k x[r, k] · w[k, q]. -/
theorem dense2_apply (x : Vec Ideal S100000x128 .f32) (w : Vec Ideal S128x64 .f32) (r : Fin 100000) (q : Fin 64) :
    Cert.Gcn.dense2 (F := Ideal) x w (ix2 r q) = ∑ k : Fin 128, x (ix2 r k) * w (ix2 k q) := by
  unfold Cert.Gcn.dense2
  simp only [Host.dotGeneral]
  rw [Ideal.dotGeneral_apply]
  exact sum_contr_eq Cert.ReferenceIdeal.dot_S100000x128_S128x64_S100000x64_1_0_0_1_n_n rfl rfl arr2_l0 arr2_l1 arr2_r0 arr2_r1 x w r q

section Region2
variable (V : (c : Dev nD) → (b : Ref sig .tc) → Buf (Elt Ideal) ((c : Thread nD τ).loc b))

/-- The printed index maps, decided over the grid: at point t the tall operand's block and the output's block are both
    row block t (column block 0), and the weight matrix's block is the whole matrix. -/
theorem rowBlocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT t WRITES BACK is block t of the whole product of the two operand arrays as the region finds them. -/
theorem flushed_dense2 (c : Dev nD) (t : Fin cfg2.N) :
    (dat2 (F := Ideal) V c).flushed 2 t
      = ((cfg2.win 2).blk t).view.read (Elt Ideal) (Cert.Gcn.dense2 (F := Ideal) (V c main_v44) (V c main_arg4)) := by
  show (cfg2.win 2).cut (grid2.coords t) ((dat2 V c).after 2 t) = _
  rw [after2_2]
  unfold out2_2
  rw [View.canon_unit_zero zero_offset]
  simp only [View.ld_unit_zero (S := S5000x128) zero_offset, View.ld_unit_zero (S := S128x64) zero_offset]
  obtain ⟨e0, e1, e2, e3, e4, e5⟩ := rowBlocks2 t
  have ht : t.val < 20 := t.isLt
  funext j
  obtain ⟨p, q, rfl⟩ : ∃ (p : Fin 5000) (q : Fin 64), j = ix2 p q := ⟨j 0, j 1, eq_ix2 j⟩
  refine (blockProduct2_apply (iblk2 V c 0 t) (iblk2 V c 1 t) p q).trans ?_
  -- the row of the array this block row is
  have hp : p.val < 5000 := p.isLt
  have hr : t.val * 5000 + p.val < 100000 := by omega
  have hemb : ((cfg2.win 2).blk t).view.emb (ix2 p q) = (ix2 (⟨t.val * 5000 + p.val, hr⟩ : Fin 100000) q : S100000x64.Idx) := by
    funext a; apply Fin.ext
    match a with
    | ⟨0, _⟩ => show win2_2.index t (0 : Fin 2) * 5000 + 1 * p.val = t.val * 5000 + p.val; omega
    | ⟨1, _⟩ => show win2_2.index t (1 : Fin 2) * 64 + 1 * q.val = q.val; omega
  refine Eq.trans ?_ (congrArg (Cert.Gcn.dense2 (F := Ideal) (V c main_v44) (V c main_arg4)) hemb).symm
  refine Eq.trans ?_ (dense2_apply (V c main_v44) (V c main_arg4) ⟨t.val * 5000 + p.val, hr⟩ q).symm
  refine Finset.sum_congr rfl fun k _ => ?_
  have h0 : iblk2 V c 0 t (ix2 p k) = V c main_v44 (ix2 (⟨t.val * 5000 + p.val, hr⟩ : Fin 100000) k : S100000x128.Idx) := by
    show V c main_v44 (((cfg2.win 0).blk t).view.emb (ix2 p k)) = _
    refine congrArg (V c main_v44) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : iblk2 V c 1 t (ix2 k q) = V c main_arg4 (ix2 k q : S128x64.Idx) := by
    show V c main_arg4 (((cfg2.win 1).blk t).view.emb (ix2 k q)) = _
    refine congrArg (V c main_arg4) ?_
    funext a; apply Fin.ext
    match a with
    | ⟨0, _⟩ => show win2_1.index t (0 : Fin 2) * 128 + 1 * k.val = k.val; omega
    | ⟨1, _⟩ => show win2_1.index t (1 : Fin 2) * 64 + 1 * q.val = q.val; omega
  rw [h0, h1]

/-- An index of the output array is in point t's block iff each coordinate is in the block's range on its axis. -/
theorem mem_rowBlock2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v45).slice (win2_2.rect t)).set ↔ _
  rw [View.set_slice_whole, Rect.mem_set_unit]
  exact Iff.rfl

/-- The twenty row blocks tile the output: row r lies in the block of point r / 5000. -/
theorem rowBlocks2_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  have htv : t.val = (i 0).val / 5000 := rfl
  obtain ⟨e0, e1, e2, e3, e4, e5⟩ := rowBlocks2 t
  refine ⟨t, flush2_2 t, ?_⟩
  rw [mem_rowBlock2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- THE ARRAY region 2 leaves: the whole product of its two operand arrays. -/
theorem dense2_final (c : Dev nD) :
    (dat2 (F := Ideal) V c).arrAt 2 cfg2.N = Cert.Gcn.dense2 (F := Ideal) (V c main_v44) (V c main_arg4) :=
  (dat2 (F := Ideal) V c).arrAt_eq_of_cover 2 (Cert.Gcn.dense2 (F := Ideal) (V c main_v44) (V c main_arg4))
    (fun t _ => flushed_dense2 V c t) rowBlocks2_cover

end Region2

end Cert.KernelIdeal.DenseRegions

end
-- ==== Proof.SoftmaxSpec.lean ====
/-
  The specification's bias-and-log-softmax, read at an entry.

  For a [100000, 64] array `o`, the log-soft-max along each row at (r, q) depends on row r alone:
      (o[r, q] - M) - log Σ_k exp (o[r, k] - M),     M = the maximum of row r,
  the maximum folded from the word of -inf (and compared with that word once more, which changes nothing: the fold is
  already at least its starting value). The host's reductions are read one row at a time — a maximum-reduce along the
  row axis as the fold of `max` over the row's 64 entries, a sum-reduce as the initial value (zero) plus the sum of the
  row's entries — and the spreading broadcasts as reading the per-row value back at every column. Nothing here evaluates
  the word of -inf: the kernel folds from the same word.
-/
import proofs.«101620_j6090263626106_1_alg».proof.Proof.Spec
import Idealize.ShloMosaic.Lib.ValueIdx
import Idealize.ShloMosaic.Lib.Pipeline.Value
import Idealize.ShloMosaic.PureOps.Ideal.Laws

noncomputable section

namespace Cert.Gcn.RowSoftmax

open Idealize.ShloMosaic Idealize.ShloMosaic.ValueIdx
open Cert.ReferenceIdeal

/-- The word both programs fold a row's maximum from (the pattern of -∞), never evaluated. -/
abbrev negInf : Ideal .f32 := FloatOps.ofBits (F := Ideal) .f32 0xFF800000#32

/-- A row's maximum, folded from that word. -/
def rowTop (row : Fin 64 → EReal) : EReal := (Finset.univ : Finset (Fin 64)).fold max negInf row

/-- The log-soft-max of one row of 64 entries, at entry `q`: the entry less the row's maximum, less the logarithm of the
    sum of the exponentials of the row's entries less the maximum. -/
def rowLogSoftmax (row : Fin 64 → EReal) (q : Fin 64) : EReal :=
  (row q - rowTop row) - Ideal.log (∑ k : Fin 64, Ideal.exp (row k - rowTop row))

/-- A row index `p` of an `[m]` array with column `k` put back on axis 1 is `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- Folding a maximum once more against the word it was folded from changes nothing. -/
theorem max_rowTop (row : Fin 64 → EReal) : max negInf (rowTop row) = rowTop row :=
  max_eq_right ((Finset.le_fold_max negInf).mpr (Or.inl le_rfl))

set_option maxHeartbeats 200000 in
/-- The host's maximum-reduce along each row, from that word, at row r: the fold of `max` over the row. -/
theorem hostRowMax_apply (o : FVec Ideal S100000x64 .f32)
    (h' : S100000x64.ReducesTo [1] S100000) (hu : 0 < S_.numel) (r : Fin 100000) :
    Host.reduce (FloatOps.maximumf (F := Ideal) (φ := .f32)) o (constant (F := Ideal) S_ .f32 0xFF800000#32) h' hu (ix1 r)
      = rowTop fun k => o (ix2 r k) := by
  have hR : S100000x64.Reduces [1] S100000 := by decide
  refine (Host.reduce_eq_fold_single (FloatOps.maximumf (F := Ideal) (φ := .f32)) o
    (constant (F := Ideal) S_ .f32 0xFF800000#32) h' hR hu (ix1 r)).trans ?_
  have hf : (o ∘ hR.lift (ix1 r)) = fun k : Fin 64 => o (ix2 r k) :=
    funext fun k => congrArg o (lift_row (m := 100000) (n := 64) hR r k)
  exact congrArg (fun f => Finset.fold max negInf f (Finset.univ : Finset (Fin 64))) hf

/-- A scalar constant spread over the nodes reads the constant's word. -/
theorem splat_apply (h : S_.BroadcastsInDim S100000 (![] : Fin 0 → Fin S100000.rank)) (w : BitVec 32) (r : Fin 100000) :
    broadcastInDim S100000 ![] h (constant (F := Ideal) S_ .f32 w) (ix1 r) = Ideal.ofBits .f32 w := by
  rw [broadcastInDim_apply ![] h _ (ix1 r) ix0 (fun a => a.elim0)]
  rfl

set_option maxHeartbeats 200000 in
/-- The specification's row maximum at row r: the fold of `max` over the row. -/
theorem rowMax_apply (o : FVec Ideal S100000x64 .f32) (r : Fin 100000) :
    Cert.Gcn.rowMax (F := Ideal) o (ix1 r) = rowTop fun k => o (ix2 r k) := by
  unfold Cert.Gcn.rowMax
  rw [maximumf_apply, hostRowMax_apply, splat_apply]
  exact max_rowTop _

/-- A per-node vector made a column and spread over the 64 features reads, at (r, q), the vector at r. -/
theorem spread_apply (h1 : S100000.BroadcastsInDim S100000x1 (![0] : Fin 1 → Fin S100000x1.rank))
    (h2 : S100000x1.BroadcastsInDim S100000x64 (![0, 1] : Fin 2 → Fin S100000x64.rank))
    (v : FVec Ideal S100000 .f32) (r : Fin 100000) (q : Fin 64) :
    broadcastInDim S100000x64 ![0, 1] h2 (broadcastInDim S100000x1 ![0] h1 v) (ix2 r q) = v (ix1 r) := by
  rw [broadcastInDim_apply ![0, 1] h2 _ (ix2 r q) (ix2 r (0 : Fin 1)) (fun a => by
    match a with
    | ⟨0, _⟩ => rfl
    | ⟨1, _⟩ => rfl)]
  rw [broadcastInDim_apply ![0] h1 v (ix2 r (0 : Fin 1)) (ix1 r) (fun a => by
    match a with
    | ⟨0, _⟩ => rfl)]

set_option maxHeartbeats 200000 in
/-- An entry less its row's maximum. -/
theorem shifted_apply (o : FVec Ideal S100000x64 .f32) (r : Fin 100000) (q : Fin 64) :
    Cert.Gcn.shifted (F := Ideal) o (ix2 r q) = o (ix2 r q) - rowTop fun k => o (ix2 r k) := by
  unfold Cert.Gcn.shifted
  rw [subf_apply, spread_apply, rowMax_apply]

set_option maxHeartbeats 200000 in
/-- The host's sum-reduce along each row from zero, at row r: the sum of the row's entries. -/
theorem hostRowSum_apply (x : FVec Ideal S100000x64 .f32)
    (h' : S100000x64.ReducesTo [1] S100000) (hu : 0 < S_.numel) (r : Fin 100000) :
    Host.reduceAdd x (constant (F := Ideal) S_ .f32 0x00000000#32) h' hu (ix1 r) = ∑ k : Fin 64, x (ix2 r k) := by
  have hR : S100000x64.Reduces [1] S100000 := by decide
  unfold Host.reduceAdd
  rw [Ideal.hostReduceAdd_def, Ideal.hostReduceAdd_single h' hR, constant_apply, Ideal.ofBits_zero_f32, zero_add]
  exact Finset.sum_congr rfl fun k _ => congrArg x (lift_row (m := 100000) (n := 64) hR r k)

/-- A per-node vector made a column reads, at (r, u), the vector at r. -/
theorem col_apply (h1 : S100000.BroadcastsInDim S100000x1 (![0] : Fin 1 → Fin S100000x1.rank))
    (v : FVec Ideal S100000 .f32) (r : Fin 100000) (u : Fin 1) :
    broadcastInDim S100000x1 ![0] h1 v (ix2 r u) = v (ix1 r) := by
  rw [broadcastInDim_apply ![0] h1 v (ix2 r u) (ix1 r) (fun a => by
    match a with
    | ⟨0, _⟩ => rfl)]

/-- A column spread over the 64 features reads, at (r, q), the column at row r. -/
theorem spreadCol_apply (h2 : S100000x1.BroadcastsInDim S100000x64 (![0, 1] : Fin 2 → Fin S100000x64.rank))
    (c : FVec Ideal S100000x1 .f32) (r : Fin 100000) (q : Fin 64) :
    broadcastInDim S100000x64 ![0, 1] h2 c (ix2 r q) = c (ix2 r (0 : Fin 1)) := by
  rw [broadcastInDim_apply ![0, 1] h2 c (ix2 r q) (ix2 r (0 : Fin 1)) (fun a => by
    match a with
    | ⟨0, _⟩ => rfl
    | ⟨1, _⟩ => rfl)]

/-- The host's logarithm and exponential act entry by entry. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

set_option maxHeartbeats 200000 in
/-- The specification's log-softmax at (r, q): the row's log-soft-max at q. -/
theorem logSoftmax_apply (o : FVec Ideal S100000x64 .f32) (r : Fin 100000) (q : Fin 64) :
    Cert.Gcn.logSoftmax (F := Ideal) o (ix2 r q) = rowLogSoftmax (fun k => o (ix2 r k)) q := by
  unfold Cert.Gcn.logSoftmax
  rw [subf_apply, shifted_apply, spreadCol_apply, hostLog_apply, col_apply, hostRowSum_apply]
  unfold rowLogSoftmax
  refine congrArg (fun s => (o (ix2 r q) - rowTop (fun k => o (ix2 r k))) - Ideal.log s) (Finset.sum_congr rfl fun k _ => ?_)
  rw [hostExp_apply, shifted_apply]

/-- The bias row added to every row, at (r, k). -/
theorem biased64_apply (a : FVec Ideal S100000x64 .f32) (b : FVec Ideal S1x64 .f32) (r : Fin 100000) (k : Fin 64) :
    Cert.Gcn.biased64 (F := Ideal) a b (ix2 r k) = a (ix2 r k) + b (ix2 (0 : Fin 1) k) := by
  unfold Cert.Gcn.biased64
  rw [addf_apply, broadcastInDim_apply _ _ b (ix2 r k) (ix2 (0 : Fin 1) k) (fun ax => by
    match ax with
    | ⟨0, _⟩ => rfl
    | ⟨1, _⟩ => rfl)]

set_option maxHeartbeats 200000 in
/-- The specification's bias-and-log-softmax at (r, q): the log-soft-max, at q, of row r of `a` with the bias row added. -/
theorem biasLogSoftmax_apply (a : FVec Ideal S100000x64 .f32) (b : FVec Ideal S1x64 .f32) (r : Fin 100000) (q : Fin 64) :
    Cert.Gcn.biasLogSoftmax (F := Ideal) a b (ix2 r q) = rowLogSoftmax (fun k => a (ix2 r k) + b (ix2 (0 : Fin 1) k)) q := by
  unfold Cert.Gcn.biasLogSoftmax
  rw [logSoftmax_apply]
  exact congrArg (fun row => rowLogSoftmax row q) (funext fun k => biased64_apply a b r k)

end Cert.Gcn.RowSoftmax

end
-- ==== Proof.RegionBias.lean ====
/-
  The two bias regions of the pipelined graph convolution, each read as one whole-array function of its two operand
  arrays: region 1 adds a [1, 128] bias row to every row of a [100000, 128] array and clamps at zero; region 3 adds a
  [1, 64] bias row to every row of a [100000, 64] array and takes the logarithm of the soft-max along each row.

  Both regions walk the rows in 20 blocks of 5000. At a grid point `t` the body sees rows 5000·t … 5000·t + 4999 of
  the first operand and the whole bias row, and what it stores at (p, q) depends only on row p of its block — on row
  5000·t + p of the array. So each point writes back block `t` of one function of the two arrays, the blocks tile the
  output, and the output ends holding that function.
-/
import proofs.«101620_j6090263626106_1_alg».proof.Proof.Gen.KernelIdeal.Frame
import proofs.«101620_j6090263626106_1_alg».proof.Proof.Spec
import proofs.«101620_j6090263626106_1_alg».proof.Proof.SoftmaxSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.BiasRegions

open Idealize.ShloMosaic Idealize.ShloMosaic.TcCoe Idealize.SL.Sem
open Idealize.ShloMosaic.Pipeline (Dat)
open Idealize.ShloMosaic.ValueIdx
open Cert.KernelIdeal Cert.KernelIdeal.Gen
open Cert.Gcn.RowSoftmax

variable (V : (c : Dev nD) → (b : Ref sig .tc) → Buf (Elt Ideal) ((c : Thread nD τ).loc b))

/-- The zero offsets of a whole-block access, as the constant function. -/
theorem offsets_zero : (![0, 0] : Fin 2 → Nat) = fun _ => 0 := funext fun a => by fin_cases a <;> rfl

/-! ## Region 1: bias and clamp at zero -/

/-- The body's payload at (p, q): the block's entry plus the bias row's entry in column q, clamped at the zero word. -/
theorem reluBlock_apply (x0 : Vec Ideal S5000x128 .f32) (x1 : Vec Ideal S1x128 .f32) (p : Fin 5000) (q : Fin 128) :
    k1_pay1 (F := Ideal) x0 x1 (ix2 p q)
      = max (x0 (ix2 p q) + x1 (ix2 (0 : Fin 1) q)) (FloatOps.ofBits (F := Ideal) .f32 0x00000000#32) := by
  unfold k1_pay1
  simp only [shapeCast_self]
  show max (x0 (ix2 p q) + broadcastTo S5000x128 x1 _ (ix2 p q)) _ = _
  rw [broadcastTo_1b_ab_apply]
  rfl

/-- The specification at (r, q): the array's entry plus the bias row's entry in column q, clamped at the zero word. -/
theorem biasRelu_apply (a : Cert.Gcn.FArr Ideal Cert.ReferenceIdeal.S100000x128) (b : Cert.Gcn.FArr Ideal Cert.ReferenceIdeal.S1x128)
    (r : Fin 100000) (q : Fin 128) :
    Cert.Gcn.biasRelu (F := Ideal) a b (ix2 r q)
      = max (a (ix2 r q) + b (ix2 (0 : Fin 1) q)) (FloatOps.ofBits (F := Ideal) .f32 0x00000000#32) := by
  unfold Cert.Gcn.biasRelu
  show max (a (ix2 r q) + broadcastInDim _ _ _ b (ix2 r q)) _ = _
  rw [broadcastInDim_apply _ _ b (ix2 r q) (ix2 (0 : Fin 1) q) (fun ax => by
    match ax with
    | ⟨0, _⟩ => rfl
    | ⟨1, _⟩ => rfl)]
  rfl

/-- The printed index maps of region 1, decided over its 20 grid points: the array operand and the output move together,
    one row block per point, and the bias row is read whole at every point. -/
theorem reluIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of block t is row 5000·t + p of the array. -/
def reluRow (t : Fin cfg1.N) (p : Fin 5000) : Fin 100000 :=
  ⟨5000 * t.val + p.val, by have := t.isLt; have hN : cfg1.N = 20 := N_1; omega⟩

/-- Where entry (p, q) of the array operand's block at point t sits in the array. -/
theorem relu_emb0 (t : Fin cfg1.N) (p : Fin 5000) (q : Fin 128) :
    ((cfg1.win 0).blk t).view.emb (ix2 p q) = (ix2 (reluRow t p) q : S100000x128.Idx) := by
  obtain ⟨e0, e1, e2, e3, e4, e5⟩ := reluIndex t
  funext a; apply Fin.ext
  match a with
  | ⟨0, _⟩ => show win1_0.index t (0 : Fin 2) * 5000 + 1 * p.val = 5000 * t.val + p.val; omega
  | ⟨1, _⟩ => show win1_0.index t (1 : Fin 2) * 128 + 1 * q.val = q.val; omega

/-- Where entry (0, q) of the bias row's block sits in the bias row: at (0, q). -/
theorem relu_emb1 (t : Fin cfg1.N) (q : Fin 128) :
    ((cfg1.win 1).blk t).view.emb (ix2 (0 : Fin 1) q) = (ix2 (0 : Fin 1) q : S1x128.Idx) := by
  obtain ⟨e0, e1, e2, e3, e4, e5⟩ := reluIndex t
  funext a; apply Fin.ext
  match a with
  | ⟨0, _⟩ => show win1_1.index t (0 : Fin 2) * 1 + 1 * 0 = 0; omega
  | ⟨1, _⟩ => show win1_1.index t (1 : Fin 2) * 128 + 1 * q.val = q.val; omega

/-- Where entry (p, q) of the output's block at point t sits in the output. -/
theorem relu_emb2 (t : Fin cfg1.N) (p : Fin 5000) (q : Fin 128) :
    ((cfg1.win 2).blk t).view.emb (ix2 p q) = (ix2 (reluRow t p) q : S100000x128.Idx) := by
  obtain ⟨e0, e1, e2, e3, e4, e5⟩ := reluIndex t
  funext a; apply Fin.ext
  match a with
  | ⟨0, _⟩ => show win1_2.index t (0 : Fin 2) * 5000 + 1 * p.val = 5000 * t.val + p.val; omega
  | ⟨1, _⟩ => show win1_2.index t (1 : Fin 2) * 128 + 1 * q.val = q.val; omega

/-- Region 1's array operand, as the region finds it. -/
abbrev reluArr (c : Dev nD) : S100000x128.Idx → Ideal .f32 := V c main_v42
/-- Region 1's bias row, as the region finds it. -/
abbrev reluBias (c : Dev nD) : S1x128.Idx → Ideal .f32 := V c main_v43

/-- What point t writes back is block t of the specification's function of the two operand arrays. -/
theorem reluFlushed_eq (c : Dev nD) (t : Fin cfg1.N) :
    (dat1 (F := Ideal) V c).flushed 2 t
      = ((cfg1.win 2).blk t).view.read (Elt Ideal) (Cert.Gcn.biasRelu (F := Ideal) (V c main_v42) (V c main_v43)) := by
  show (cfg1.win 2).cut (grid1.coords t) ((dat1 V c).after 2 t) = _
  rw [after1_2]
  unfold out1_2
  rw [View.canon_unit_zero offsets_zero]
  simp only [View.ld_unit_zero (S := S5000x128) offsets_zero, View.ld_unit_zero (S := S1x128) offsets_zero]
  funext j
  obtain ⟨p, q, rfl⟩ : ∃ (p : Fin 5000) (q : Fin 128), j = ix2 p q := ⟨j 0, j 1, eq_ix2 j⟩
  refine (reluBlock_apply _ _ p q).trans ?_
  show max (reluArr V c (((cfg1.win 0).blk t).view.emb (ix2 p q)) + reluBias V c (((cfg1.win 1).blk t).view.emb (ix2 (0 : Fin 1) q))) _
    = Cert.Gcn.biasRelu (F := Ideal) (reluArr V c) (reluBias V c) (((cfg1.win 2).blk t).view.emb (ix2 p q))
  rw [relu_emb0, relu_emb1, relu_emb2, biasRelu_apply]

/-- An index of the output is in point t's block iff each coordinate is in the block's range on its axis. -/
theorem relu_mem_blk (t : Fin cfg1.N) (i : S100000x128.Idx) :
    i ∈ ((cfg1.win 2).blk t).view.set
      ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- The 20 row blocks tile the output: row r lies in the block of point r / 5000. -/
theorem relu_cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by omega⟩
  have ht : t.val = (i 0).val / 5000 := rfl
  obtain ⟨e0, e1, e2, e3, e4, e5⟩ := reluIndex t
  refine ⟨t, flush1_2 t, ?_⟩
  rw [relu_mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- REGION 1, READ: after its 20 points the output array holds `max (a + b) 0` of the two operand arrays as the region
    found them. -/
theorem biasRelu_final (c : Dev nD) :
    (dat1 (F := Ideal) V c).arrAt 2 cfg1.N = Cert.Gcn.biasRelu (F := Ideal) (V c main_v42) (V c main_v43) :=
  (dat1 V c).arrAt_eq_of_cover 2 (Cert.Gcn.biasRelu (F := Ideal) (V c main_v42) (V c main_v43))
    (fun t _ => reluFlushed_eq V c t) relu_cover

/-! ## Region 3: bias and log-soft-max along each row -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-- A [5000, 64] block's row maxima, as the body computes and spreads them back over the block. -/
def blockMax (o : FVec Ideal S5000x64 .f32) : FVec Ideal S5000x64 .f32 :=
  broadcastTo S5000x64 (shapeCast S5000x1 (multiReduction (F := Ideal) .maximumf [1] S5000 o 0xFF800000#32
    Facts₀.reduces_S5000x64_S5000 (.inl rfl) rfl) Facts₀.shapeCasts_S5000_S5000x1) Facts₀.broadcasts_S5000x1_S5000x64

/-- The logarithms of a [5000, 64] block's row sums, as the body computes and spreads them back over the block. -/
def blockLogSum (e : FVec Ideal S5000x64 .f32) : FVec Ideal S5000x64 .f32 :=
  broadcastTo S5000x64 (log (shapeCast S5000x1 (multiReduction (F := Ideal) .add [1] S5000 e 0x00000000#32
    Facts₀.reduces_S5000x64_S5000 (.inl rfl) rfl) Facts₀.shapeCasts_S5000_S5000x1)) Facts₀.broadcasts_S5000x1_S5000x64

/-- The body's payload is the log-soft-max of the biased block, in those two pieces. -/
theorem lsmPayload_eq (x0 : Vec Ideal S5000x64 .f32) (x1 : Vec Ideal S1x64 .f32) :
    k3_pay1 (F := Ideal) x0 x1
      = subf (subf (addf x0 (broadcastTo S5000x64 x1 Facts₀.broadcasts_S1x64_S5000x64))
                (blockMax (addf x0 (broadcastTo S5000x64 x1 Facts₀.broadcasts_S1x64_S5000x64))))
          (blockLogSum (exp (subf (addf x0 (broadcastTo S5000x64 x1 Facts₀.broadcasts_S1x64_S5000x64))
                (blockMax (addf x0 (broadcastTo S5000x64 x1 Facts₀.broadcasts_S1x64_S5000x64)))))) := by
  unfold k3_pay1 blockMax blockLogSum
  simp only [shapeCast_self]

/-- The block's spread row maxima at (p, q): the fold of `max` over row p. -/
theorem blockMax_apply (o : FVec Ideal S5000x64 .f32) (p : Fin 5000) (q : Fin 64) :
    blockMax o (ix2 p q) = rowTop fun k => o (ix2 p k) := by
  unfold blockMax
  refine (broadcastTo_a1_ab_apply _ _ p q).trans ?_
  refine (shapeCast_a_a1_apply _ _ p 0).trans ?_
  refine (Ideal.multiReduction_maximumf_single o _ Facts₀.reduces_S5000x64_S5000 _ _ (ix1 p)).trans ?_
  have hf : (o ∘ Facts₀.reduces_S5000x64_S5000.lift (ix1 p)) = fun k : Fin 64 => o (ix2 p k) :=
    funext fun k => congrArg o (lift_row _ p k)
  exact congrArg (fun f => Finset.fold max negInf f (Finset.univ : Finset (Fin 64))) hf

/-- The block's spread logarithms of row sums at (p, q): the logarithm of the sum over row p. -/
theorem blockLogSum_apply (e : FVec Ideal S5000x64 .f32) (p : Fin 5000) (q : Fin 64) :
    blockLogSum e (ix2 p q) = Ideal.log (∑ k : Fin 64, e (ix2 p k)) := by
  unfold blockLogSum
  refine (broadcastTo_a1_ab_apply _ _ p q).trans ?_
  show Ideal.log (shapeCast S5000x1 _ _ (ix2 p (0 : Fin 1))) = _
  refine congrArg Ideal.log ?_
  refine (shapeCast_a_a1_apply _ _ p 0).trans ?_
  refine (Ideal.multiReduction_add_single e _ Facts₀.reduces_S5000x64_S5000 _ _ (ix1 p)).trans ?_
  exact Finset.sum_congr rfl fun k _ => congrArg e (lift_row _ p k)

/-- The log-soft-max of a block in those two pieces, at (p, q): the row's log-soft-max at q. -/
theorem blockLsm_apply (o : FVec Ideal S5000x64 .f32) (p : Fin 5000) (q : Fin 64) :
    subf (subf o (blockMax o)) (blockLogSum (exp (subf o (blockMax o)))) (ix2 p q)
      = rowLogSoftmax (fun k => o (ix2 p k)) q := by
  rw [subf_apply, subf_apply, blockMax_apply, blockLogSum_apply]
  unfold rowLogSoftmax
  refine congrArg (fun s => (o (ix2 p q) - rowTop (fun k => o (ix2 p k))) - Ideal.log s) ?_
  refine Finset.sum_congr rfl fun k _ => ?_
  show Ideal.exp (o (ix2 p k) - blockMax o (ix2 p k)) = _
  rw [blockMax_apply]

/-- The body's payload at (p, q): the log-soft-max, at q, of row p of the block with the bias row added. -/
theorem lsmBlock_apply (x0 : Vec Ideal S5000x64 .f32) (x1 : Vec Ideal S1x64 .f32) (p : Fin 5000) (q : Fin 64) :
    k3_pay1 (F := Ideal) x0 x1 (ix2 p q) = rowLogSoftmax (fun k => x0 (ix2 p k) + x1 (ix2 (0 : Fin 1) k)) q := by
  rw [lsmPayload_eq, blockLsm_apply]
  refine congrArg (fun row => rowLogSoftmax row q) (funext fun k => ?_)
  show x0 (ix2 p k) + broadcastTo S5000x64 x1 _ (ix2 p k) = _
  rw [broadcastTo_1b_ab_apply]

/-- The printed index maps of region 3, decided over its 20 grid points: the array operand and the output move together,
    one row block per point, and the bias row is read whole at every point. -/
theorem lsmIndex : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of block t is row 5000·t + p of the array. -/
def lsmRow (t : Fin cfg3.N) (p : Fin 5000) : Fin 100000 :=
  ⟨5000 * t.val + p.val, by have := t.isLt; have hN : cfg3.N = 20 := N_3; omega⟩

/-- Where entry (p, k) of the array operand's block at point t sits in the array. -/
theorem lsm_emb0 (t : Fin cfg3.N) (p : Fin 5000) (k : Fin 64) :
    ((cfg3.win 0).blk t).view.emb (ix2 p k) = (ix2 (lsmRow t p) k : S100000x64.Idx) := by
  obtain ⟨e0, e1, e2, e3, e4, e5⟩ := lsmIndex t
  funext a; apply Fin.ext
  match a with
  | ⟨0, _⟩ => show win3_0.index t (0 : Fin 2) * 5000 + 1 * p.val = 5000 * t.val + p.val; omega
  | ⟨1, _⟩ => show win3_0.index t (1 : Fin 2) * 64 + 1 * k.val = k.val; omega

/-- Where entry (0, k) of the bias row's block sits in the bias row: at (0, k). -/
theorem lsm_emb1 (t : Fin cfg3.N) (k : Fin 64) :
    ((cfg3.win 1).blk t).view.emb (ix2 (0 : Fin 1) k) = (ix2 (0 : Fin 1) k : S1x64.Idx) := by
  obtain ⟨e0, e1, e2, e3, e4, e5⟩ := lsmIndex t
  funext a; apply Fin.ext
  match a with
  | ⟨0, _⟩ => show win3_1.index t (0 : Fin 2) * 1 + 1 * 0 = 0; omega
  | ⟨1, _⟩ => show win3_1.index t (1 : Fin 2) * 64 + 1 * k.val = k.val; omega

/-- Where entry (p, q) of the output's block at point t sits in the output. -/
theorem lsm_emb2 (t : Fin cfg3.N) (p : Fin 5000) (q : Fin 64) :
    ((cfg3.win 2).blk t).view.emb (ix2 p q) = (ix2 (lsmRow t p) q : S100000x64.Idx) := by
  obtain ⟨e0, e1, e2, e3, e4, e5⟩ := lsmIndex t
  funext a; apply Fin.ext
  match a with
  | ⟨0, _⟩ => show win3_2.index t (0 : Fin 2) * 5000 + 1 * p.val = 5000 * t.val + p.val; omega
  | ⟨1, _⟩ => show win3_2.index t (1 : Fin 2) * 64 + 1 * q.val = q.val; omega

/-- Region 3's array operand, as the region finds it. -/
abbrev lsmArr (c : Dev nD) : S100000x64.Idx → Ideal .f32 := V c main_v58
/-- Region 3's bias row, as the region finds it. -/
abbrev lsmBias (c : Dev nD) : S1x64.Idx → Ideal .f32 := V c main_v59

set_option maxHeartbeats 400000 in
/-- What point t writes back is block t of the specification's function of the two operand arrays: entry (p, q) of
    the block is the log-soft-max, at q, of row 5000·t + p of the array with the bias row added — on both sides. -/
theorem lsmFlushed_eq (c : Dev nD) (t : Fin cfg3.N) :
    (dat3 (F := Ideal) V c).flushed 2 t
      = ((cfg3.win 2).blk t).view.read (Elt Ideal) (Cert.Gcn.biasLogSoftmax (F := Ideal) (V c main_v58) (V c main_v59)) := by
  show (cfg3.win 2).cut (grid3.coords t) ((dat3 V c).after 2 t) = _
  rw [after3_2]
  unfold out3_2
  rw [View.canon_unit_zero offsets_zero]
  simp only [View.ld_unit_zero (S := S5000x64) offsets_zero, View.ld_unit_zero (S := S1x64) offsets_zero]
  funext j
  obtain ⟨p, q, rfl⟩ : ∃ (p : Fin 5000) (q : Fin 64), j = ix2 p q := ⟨j 0, j 1, eq_ix2 j⟩
  refine (lsmBlock_apply _ _ p q).trans ?_
  show rowLogSoftmax (fun k => lsmArr V c (((cfg3.win 0).blk t).view.emb (ix2 p k)) + lsmBias V c (((cfg3.win 1).blk t).view.emb (ix2 (0 : Fin 1) k))) q
    = Cert.Gcn.biasLogSoftmax (F := Ideal) (lsmArr V c) (lsmBias V c) (((cfg3.win 2).blk t).view.emb (ix2 p q))
  rw [lsm_emb2, biasLogSoftmax_apply]
  refine congrArg (fun row => rowLogSoftmax row q) (funext fun k => ?_)
  rw [lsm_emb0, lsm_emb1]

/-- An index of the output is in point t's block iff each coordinate is in the block's range on its axis. -/
theorem lsm_mem_blk (t : Fin cfg3.N) (i : S100000x64.Idx) :
    i ∈ ((cfg3.win 2).blk t).view.set
      ↔ ∀ a : Fin 2, win3_2.index t a * S5000x64.size a ≤ (i a).val ∧ (i a).val < win3_2.index t a * S5000x64.size a + S5000x64.size a := by
  show i ∈ ((View.whole main_v60).slice (win3_2.rect t)).set ↔ _
  rw [View.set_slice_whole, Rect.mem_set_unit]
  exact Iff.rfl

/-- The 20 row blocks tile the output: row r lies in the block of point r / 5000. -/
theorem lsm_cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  let t : Fin cfg3.N := ⟨(i 0).val / 5000, by omega⟩
  have ht : t.val = (i 0).val / 5000 := rfl
  obtain ⟨e0, e1, e2, e3, e4, e5⟩ := lsmIndex t
  refine ⟨t, flush3_2 t, ?_⟩
  rw [lsm_mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- REGION 3, READ: after its 20 points the output array holds the log-soft-max along each row of `a + b`, for the two
    operand arrays as the region found them. -/
theorem biasLogSoftmax_final (c : Dev nD) :
    (dat3 (F := Ideal) V c).arrAt 2 cfg3.N = Cert.Gcn.biasLogSoftmax (F := Ideal) (V c main_v58) (V c main_v59) :=
  (dat3 V c).arrAt_eq_of_cover 2 (Cert.Gcn.biasLogSoftmax (F := Ideal) (V c main_v58) (V c main_v59))
    (fun t _ => lsmFlushed_eq V c t) lsm_cover

end Cert.KernelIdeal.BiasRegions

end
-- ==== Proof.LibTypedRef.lean ====
/-
  Typed references: contents moved to a typed reference's buffer and back are unchanged.

  An operation of a module-local function (a relu, a log_softmax, … that the program calls) is written over typed
  references: each operand is read from its buffer at the value's own type and each result is stored at the buffer's
  type, two transports along the same equation of types. Read after a fold of such operations, every intermediate value
  therefore appears wrapped as "stored, then read": the wrapping is the identity, whatever the reference. (After
  rewriting with `ofBuf_toBuf` only the line's own ends keep a transport — the first operand read and the last result
  stored — and each of those is the identity by computation at the literal reference.)
-/
import Idealize.ShloMosaic.Lib.StableHlo

namespace Cert.LibTypedRef

open Idealize.ShloMosaic Idealize.ShloMosaic.StableHlo

variable {sig : RefSig} {Val : EltTy → Type} {T : BufTy}

/-- A value stored at a typed reference's buffer and read back is the value. -/
theorem ofBuf_toBuf (x : TRef sig T) (v : T.Contents Val) : x.ofBuf (x.toBuf v) = v := by
  obtain ⟨r, rfl, h2, h3⟩ := x
  rfl

/-- Buffer contents read at the value's type and stored back are the contents. -/
theorem toBuf_ofBuf (x : TRef sig T) (v : x.ref.ty.Contents Val) : x.toBuf (x.ofBuf v) = v := by
  obtain ⟨r, rfl, h2, h3⟩ := x
  rfl

end Cert.LibTypedRef
-- ==== Proof.ReferenceRun.lean ====
/-
  The idealized reference's run, read stretch by stretch. Its @main is a straight line of 94 host operations (the two
  functions it calls, relu and log_softmax, standing in their calls' places), so every weakly fair execution terminates
  with each buffer at the fold of the operations' results over the launch contents. The line is cut where the network's
  stages end — the edge lists and weights; the first dense product; the first propagation; bias and relu; the second
  dense product; the second propagation; bias and log-softmax — and each stretch is read as the specification's function
  of the buffer contents it starts from. A buffer a stretch does not write is kept. Composed, the result buffer ends at
  the specification's network of the six argument arrays.
-/
import proofs.«101620_j6090263626106_1_alg».proof.Proof.Gen.ReferenceIdeal
import proofs.«101620_j6090263626106_1_alg».proof.Proof.Spec
import proofs.«101620_j6090263626106_1_alg».proof.Proof.LibTypedRef
import Idealize.ShloMosaic.Lib.StableHlo.Run
import Idealize.ShloMosaic.Lib.Pipeline.Frame

noncomputable section

namespace Cert.ReferenceIdeal.Gcn

open Cert.ReferenceIdeal Cert.ReferenceIdeal.Gen
open Idealize.ShloMosaic Idealize.ShloMosaic.TcCoe Idealize.SL.Sem Idealize.ShloMosaic.StableHlo

variable {F : FTy → Type} [FloatOps F]

/-! ## @main's operations, in order, in seven stretches -/

/-- The edge lists (sources, targets) and the edge weights. -/
abbrev edges : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x3F800000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (maximumf : (⟨S100000, .f32⟩ : BufTy).Contents (Elt F) → (⟨S100000, .f32⟩ : BufTy).Contents (Elt F) → (⟨S100000, .f32⟩ : BufTy).Contents (Elt F)),
    unary main_v12 main_v13 (Host.rsqrt : (⟨S100000, .f32⟩ : BufTy).Contents (Elt F) → (⟨S100000, .f32⟩ : BufTy).Contents (Elt F)),
    nullary main_c (constantI S_ 32 0#32),
    unary main_c main_v14 (broadcastInDim S1700000 ![] bcast_S_S1700000 : (⟨S_, .i32⟩ : BufTy).Contents (Elt F) → (⟨S1700000, .i32⟩ : BufTy).Contents (Elt F)),
    binary main_v3 main_v14 main_v15 (cmpi .slt : (⟨S1700000, .i32⟩ : BufTy).Contents (Elt F) → (⟨S1700000, .i32⟩ : BufTy).Contents (Elt F) → (⟨S1700000, .i1⟩ : BufTy).Contents (Elt F)),
    nullary main_c_2 (constantI S_ 32 100000#32),
    unary main_c_2 main_v16 (broadcastInDim S1700000 ![] bcast_S_S1700000 : (⟨S_, .i32⟩ : BufTy).Contents (Elt F) → (⟨S1700000, .i32⟩ : BufTy).Contents (Elt F)),
    binary main_v3 main_v16 main_v17 (addi : (⟨S1700000, .i32⟩ : BufTy).Contents (Elt F) → (⟨S1700000, .i32⟩ : BufTy).Contents (Elt F) → (⟨S1700000, .i32⟩ : BufTy).Contents (Elt F)),
    ternary main_v15 main_v17 main_v3 main_v18 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v18 main_v19 (broadcastInDim S1700000x1 ![0] bcast_S1700000_S1700000x1_0 : (⟨S1700000, .i32⟩ : BufTy).Contents (Elt F) → (⟨S1700000x1, .i32⟩ : BufTy).Contents (Elt F)),
    binary main_v13 main_v19 main_v20 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_3 (constantI S_ 32 0#32),
    unary main_c_3 main_v21 (broadcastInDim S1700000 ![] bcast_S_S1700000 : (⟨S_, .i32⟩ : BufTy).Contents (Elt F) → (⟨S1700000, .i32⟩ : BufTy).Contents (Elt F)),
    binary main_v6 main_v21 main_v22 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (addi : (⟨S1700000, .i32⟩ : BufTy).Contents (Elt F) → (⟨S1700000, .i32⟩ : BufTy).Contents (Elt F) → (⟨S1700000, .i32⟩ : BufTy).Contents (Elt F)),
    ternary main_v22 main_v24 main_v6 main_v25 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v25 main_v26 (broadcastInDim S1700000x1 ![0] bcast_S1700000_S1700000x1_0 : (⟨S1700000, .i32⟩ : BufTy).Contents (Elt F) → (⟨S1700000x1, .i32⟩ : BufTy).Contents (Elt F)),
    binary main_v13 main_v26 main_v27 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v20 main_v27 main_v28 (mulf : (⟨S1700000, .f32⟩ : BufTy).Contents (Elt F) → (⟨S1700000, .f32⟩ : BufTy).Contents (Elt F) → (⟨S1700000, .f32⟩ : BufTy).Contents (Elt F)) ]
/-- The first dense product. -/
abbrev denseA : List (HloOp τ sig (Elt F)) :=
  [ binary main_arg0 main_arg2 main_v29 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ]
/-- The first propagation: gather by source, scale, add into the targets. -/
abbrev spreadA : List (HloOp τ sig (Elt F)) :=
  [ nullary main_c_5 (constantI S_ 32 0#32),
    unary main_c_5 main_v30 (broadcastInDim S1700000 ![] bcast_S_S1700000 : (⟨S_, .i32⟩ : BufTy).Contents (Elt F) → (⟨S1700000, .i32⟩ : BufTy).Contents (Elt F)),
    binary main_v3 main_v30 main_v31 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (addi : (⟨S1700000, .i32⟩ : BufTy).Contents (Elt F) → (⟨S1700000, .i32⟩ : BufTy).Contents (Elt F) → (⟨S1700000, .i32⟩ : BufTy).Contents (Elt F)),
    ternary main_v31 main_v33 main_v3 main_v34 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v34 main_v35 (broadcastInDim S1700000x1 ![0] bcast_S1700000_S1700000x1_0 : (⟨S1700000, .i32⟩ : BufTy).Contents (Elt F) → (⟨S1700000x1, .i32⟩ : BufTy).Contents (Elt F)),
    binary main_v29 main_v35 main_v36 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v28 main_v37 (broadcastInDim S1700000x1 ![0] bcast_S1700000_S1700000x1_0 : (⟨S1700000, .f32⟩ : BufTy).Contents (Elt F) → (⟨S1700000x1, .f32⟩ : BufTy).Contents (Elt F)),
    unary main_v37 main_v38 (broadcastInDim S1700000x128 ![0, 1] bcast_S1700000x1_S1700000x128_0_1 : (⟨S1700000x1, .f32⟩ : BufTy).Contents (Elt F) → (⟨S1700000x128, .f32⟩ : BufTy).Contents (Elt F)),
    binary main_v36 main_v38 main_v39 (mulf : (⟨S1700000x128, .f32⟩ : BufTy).Contents (Elt F) → (⟨S1700000x128, .f32⟩ : BufTy).Contents (Elt F) → (⟨S1700000x128, .f32⟩ : BufTy).Contents (Elt F)),
    nullary main_cst_7 (constant S_ .f32 0x00000000#32),
    unary main_cst_7 main_v40 (broadcastInDim S100000x128 ![] bcast_S_S100000x128 : (⟨S_, .f32⟩ : BufTy).Contents (Elt F) → (⟨S100000x128, .f32⟩ : BufTy).Contents (Elt F)),
    unary main_v6 main_v41 (broadcastInDim S1700000x1 ![0] bcast_S1700000_S1700000x1_0 : (⟨S1700000, .i32⟩ : BufTy).Contents (Elt F) → (⟨S1700000x1, .i32⟩ : BufTy).Contents (Elt F)),
    ternary main_v40 main_v41 main_v39 main_v42 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]
/-- The first bias, and relu. -/
abbrev reluA : List (HloOp τ sig (Elt F)) :=
  [ unary main_arg3 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v42 main_v44 main_v45 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v45) (TRef.of (T := ⟨S100000x128, .f32⟩) main_call0_v0) (TRef.of (T := ⟨S100000x128, .f32⟩) main_v46) maximumf ]
/-- The second dense product. -/
abbrev denseB : List (HloOp τ sig (Elt F)) :=
  [ binary main_v46 main_arg4 main_v47 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]
/-- The second propagation. -/
abbrev spreadB : List (HloOp τ sig (Elt F)) :=
  [ nullary main_c_8 (constantI S_ 32 0#32),
    unary main_c_8 main_v48 (broadcastInDim S1700000 ![] bcast_S_S1700000 : (⟨S_, .i32⟩ : BufTy).Contents (Elt F) → (⟨S1700000, .i32⟩ : BufTy).Contents (Elt F)),
    binary main_v3 main_v48 main_v49 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v50 (broadcastInDim S1700000 ![] bcast_S_S1700000 : (⟨S_, .i32⟩ : BufTy).Contents (Elt F) → (⟨S1700000, .i32⟩ : BufTy).Contents (Elt F)),
    binary main_v3 main_v50 main_v51 (addi : (⟨S1700000, .i32⟩ : BufTy).Contents (Elt F) → (⟨S1700000, .i32⟩ : BufTy).Contents (Elt F) → (⟨S1700000, .i32⟩ : BufTy).Contents (Elt F)),
    ternary main_v49 main_v51 main_v3 main_v52 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v52 main_v53 (broadcastInDim S1700000x1 ![0] bcast_S1700000_S1700000x1_0 : (⟨S1700000, .i32⟩ : BufTy).Contents (Elt F) → (⟨S1700000x1, .i32⟩ : BufTy).Contents (Elt F)),
    binary main_v47 main_v53 main_v54 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v28 main_v55 (broadcastInDim S1700000x1 ![0] bcast_S1700000_S1700000x1_0 : (⟨S1700000, .f32⟩ : BufTy).Contents (Elt F) → (⟨S1700000x1, .f32⟩ : BufTy).Contents (Elt F)),
    unary main_v55 main_v56 (broadcastInDim S1700000x64 ![0, 1] bcast_S1700000x1_S1700000x64_0_1 : (⟨S1700000x1, .f32⟩ : BufTy).Contents (Elt F) → (⟨S1700000x64, .f32⟩ : BufTy).Contents (Elt F)),
    binary main_v54 main_v56 main_v57 (mulf : (⟨S1700000x64, .f32⟩ : BufTy).Contents (Elt F) → (⟨S1700000x64, .f32⟩ : BufTy).Contents (Elt F) → (⟨S1700000x64, .f32⟩ : BufTy).Contents (Elt F)),
    nullary main_cst_10 (constant S_ .f32 0x00000000#32),
    unary main_cst_10 main_v58 (broadcastInDim S100000x64 ![] bcast_S_S100000x64 : (⟨S_, .f32⟩ : BufTy).Contents (Elt F) → (⟨S100000x64, .f32⟩ : BufTy).Contents (Elt F)),
    unary main_v6 main_v59 (broadcastInDim S1700000x1 ![0] bcast_S1700000_S1700000x1_0 : (⟨S1700000, .i32⟩ : BufTy).Contents (Elt F) → (⟨S1700000x1, .i32⟩ : BufTy).Contents (Elt F)),
    ternary main_v58 main_v59 main_v57 main_v60 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]
/-- The second bias, and log-softmax along each row. -/
abbrev softmaxB : List (HloOp τ sig (Elt F)) :=
  [ unary main_arg5 main_v61 (broadcastInDim S1x64 ![1] bcast_S64_S1x64_1 : (⟨S64, .f32⟩ : BufTy).Contents (Elt F) → (⟨S1x64, .f32⟩ : BufTy).Contents (Elt F)),
    unary main_v61 main_v62 (broadcastInDim S100000x64 ![0, 1] bcast_S1x64_S100000x64_0_1 : (⟨S1x64, .f32⟩ : BufTy).Contents (Elt F) → (⟨S100000x64, .f32⟩ : BufTy).Contents (Elt F)),
    binary main_v60 main_v62 main_v63 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0xFF800000#32),
    TRef.binary (TRef.of (T := ⟨S100000x64, .f32⟩) main_v63) (TRef.of (T := ⟨S_, .f32⟩) main_call1_cst) (TRef.of (T := ⟨S100000, .f32⟩) main_call1_v0) (fun x v => Host.reduce FloatOps.maximumf x v reducesTo_S100000x64_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x64, .f32⟩) main_call1_v4) (broadcastInDim S100000x64 ![0, 1] bcast_S100000x1_S100000x64_0_1),
    TRef.binary (TRef.of (T := ⟨S100000x64, .f32⟩) main_v63) (TRef.of (T := ⟨S100000x64, .f32⟩) main_call1_v4) (TRef.of (T := ⟨S100000x64, .f32⟩) main_call1_v5) subf,
    TRef.unary (TRef.of (T := ⟨S100000x64, .f32⟩) main_call1_v5) (TRef.of (T := ⟨S100000x64, .f32⟩) main_call1_v6) Host.exp,
    TRef.nullary (TRef.of (T := ⟨S_, .f32⟩) main_call1_cst_1) (constant S_ .f32 0x00000000#32),
    TRef.binary (TRef.of (T := ⟨S100000x64, .f32⟩) main_call1_v6) (TRef.of (T := ⟨S_, .f32⟩) main_call1_cst_1) (TRef.of (T := ⟨S100000, .f32⟩) main_call1_v7) (fun x v => Host.reduceAdd x v reducesTo_S100000x64_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x64, .f32⟩) main_call1_v10) (broadcastInDim S100000x64 ![0, 1] bcast_S100000x1_S100000x64_0_1),
    TRef.binary (TRef.of (T := ⟨S100000x64, .f32⟩) main_call1_v5) (TRef.of (T := ⟨S100000x64, .f32⟩) main_call1_v10) (TRef.of (T := ⟨S100000x64, .f32⟩) main_v64) subf ]

/-- All 94, in order. -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x3F800000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (maximumf : (⟨S100000, .f32⟩ : BufTy).Contents (Elt F) → (⟨S100000, .f32⟩ : BufTy).Contents (Elt F) → (⟨S100000, .f32⟩ : BufTy).Contents (Elt F)),
    unary main_v12 main_v13 (Host.rsqrt : (⟨S100000, .f32⟩ : BufTy).Contents (Elt F) → (⟨S100000, .f32⟩ : BufTy).Contents (Elt F)),
    nullary main_c (constantI S_ 32 0#32),
    unary main_c main_v14 (broadcastInDim S1700000 ![] bcast_S_S1700000 : (⟨S_, .i32⟩ : BufTy).Contents (Elt F) → (⟨S1700000, .i32⟩ : BufTy).Contents (Elt F)),
    binary main_v3 main_v14 main_v15 (cmpi .slt : (⟨S1700000, .i32⟩ : BufTy).Contents (Elt F) → (⟨S1700000, .i32⟩ : BufTy).Contents (Elt F) → (⟨S1700000, .i1⟩ : BufTy).Contents (Elt F)),
    nullary main_c_2 (constantI S_ 32 100000#32),
    unary main_c_2 main_v16 (broadcastInDim S1700000 ![] bcast_S_S1700000 : (⟨S_, .i32⟩ : BufTy).Contents (Elt F) → (⟨S1700000, .i32⟩ : BufTy).Contents (Elt F)),
    binary main_v3 main_v16 main_v17 (addi : (⟨S1700000, .i32⟩ : BufTy).Contents (Elt F) → (⟨S1700000, .i32⟩ : BufTy).Contents (Elt F) → (⟨S1700000, .i32⟩ : BufTy).Contents (Elt F)),
    ternary main_v15 main_v17 main_v3 main_v18 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v18 main_v19 (broadcastInDim S1700000x1 ![0] bcast_S1700000_S1700000x1_0 : (⟨S1700000, .i32⟩ : BufTy).Contents (Elt F) → (⟨S1700000x1, .i32⟩ : BufTy).Contents (Elt F)),
    binary main_v13 main_v19 main_v20 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_3 (constantI S_ 32 0#32),
    unary main_c_3 main_v21 (broadcastInDim S1700000 ![] bcast_S_S1700000 : (⟨S_, .i32⟩ : BufTy).Contents (Elt F) → (⟨S1700000, .i32⟩ : BufTy).Contents (Elt F)),
    binary main_v6 main_v21 main_v22 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (addi : (⟨S1700000, .i32⟩ : BufTy).Contents (Elt F) → (⟨S1700000, .i32⟩ : BufTy).Contents (Elt F) → (⟨S1700000, .i32⟩ : BufTy).Contents (Elt F)),
    ternary main_v22 main_v24 main_v6 main_v25 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v25 main_v26 (broadcastInDim S1700000x1 ![0] bcast_S1700000_S1700000x1_0 : (⟨S1700000, .i32⟩ : BufTy).Contents (Elt F) → (⟨S1700000x1, .i32⟩ : BufTy).Contents (Elt F)),
    binary main_v13 main_v26 main_v27 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v20 main_v27 main_v28 (mulf : (⟨S1700000, .f32⟩ : BufTy).Contents (Elt F) → (⟨S1700000, .f32⟩ : BufTy).Contents (Elt F) → (⟨S1700000, .f32⟩ : BufTy).Contents (Elt F)),
    binary main_arg0 main_arg2 main_v29 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_5 (constantI S_ 32 0#32),
    unary main_c_5 main_v30 (broadcastInDim S1700000 ![] bcast_S_S1700000 : (⟨S_, .i32⟩ : BufTy).Contents (Elt F) → (⟨S1700000, .i32⟩ : BufTy).Contents (Elt F)),
    binary main_v3 main_v30 main_v31 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (addi : (⟨S1700000, .i32⟩ : BufTy).Contents (Elt F) → (⟨S1700000, .i32⟩ : BufTy).Contents (Elt F) → (⟨S1700000, .i32⟩ : BufTy).Contents (Elt F)),
    ternary main_v31 main_v33 main_v3 main_v34 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v34 main_v35 (broadcastInDim S1700000x1 ![0] bcast_S1700000_S1700000x1_0 : (⟨S1700000, .i32⟩ : BufTy).Contents (Elt F) → (⟨S1700000x1, .i32⟩ : BufTy).Contents (Elt F)),
    binary main_v29 main_v35 main_v36 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v28 main_v37 (broadcastInDim S1700000x1 ![0] bcast_S1700000_S1700000x1_0 : (⟨S1700000, .f32⟩ : BufTy).Contents (Elt F) → (⟨S1700000x1, .f32⟩ : BufTy).Contents (Elt F)),
    unary main_v37 main_v38 (broadcastInDim S1700000x128 ![0, 1] bcast_S1700000x1_S1700000x128_0_1 : (⟨S1700000x1, .f32⟩ : BufTy).Contents (Elt F) → (⟨S1700000x128, .f32⟩ : BufTy).Contents (Elt F)),
    binary main_v36 main_v38 main_v39 (mulf : (⟨S1700000x128, .f32⟩ : BufTy).Contents (Elt F) → (⟨S1700000x128, .f32⟩ : BufTy).Contents (Elt F) → (⟨S1700000x128, .f32⟩ : BufTy).Contents (Elt F)),
    nullary main_cst_7 (constant S_ .f32 0x00000000#32),
    unary main_cst_7 main_v40 (broadcastInDim S100000x128 ![] bcast_S_S100000x128 : (⟨S_, .f32⟩ : BufTy).Contents (Elt F) → (⟨S100000x128, .f32⟩ : BufTy).Contents (Elt F)),
    unary main_v6 main_v41 (broadcastInDim S1700000x1 ![0] bcast_S1700000_S1700000x1_0 : (⟨S1700000, .i32⟩ : BufTy).Contents (Elt F) → (⟨S1700000x1, .i32⟩ : BufTy).Contents (Elt F)),
    ternary main_v40 main_v41 main_v39 main_v42 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v42 main_v44 main_v45 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v45) (TRef.of (T := ⟨S100000x128, .f32⟩) main_call0_v0) (TRef.of (T := ⟨S100000x128, .f32⟩) main_v46) maximumf,
    binary main_v46 main_arg4 main_v47 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_8 (constantI S_ 32 0#32),
    unary main_c_8 main_v48 (broadcastInDim S1700000 ![] bcast_S_S1700000 : (⟨S_, .i32⟩ : BufTy).Contents (Elt F) → (⟨S1700000, .i32⟩ : BufTy).Contents (Elt F)),
    binary main_v3 main_v48 main_v49 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v50 (broadcastInDim S1700000 ![] bcast_S_S1700000 : (⟨S_, .i32⟩ : BufTy).Contents (Elt F) → (⟨S1700000, .i32⟩ : BufTy).Contents (Elt F)),
    binary main_v3 main_v50 main_v51 (addi : (⟨S1700000, .i32⟩ : BufTy).Contents (Elt F) → (⟨S1700000, .i32⟩ : BufTy).Contents (Elt F) → (⟨S1700000, .i32⟩ : BufTy).Contents (Elt F)),
    ternary main_v49 main_v51 main_v3 main_v52 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v52 main_v53 (broadcastInDim S1700000x1 ![0] bcast_S1700000_S1700000x1_0 : (⟨S1700000, .i32⟩ : BufTy).Contents (Elt F) → (⟨S1700000x1, .i32⟩ : BufTy).Contents (Elt F)),
    binary main_v47 main_v53 main_v54 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v28 main_v55 (broadcastInDim S1700000x1 ![0] bcast_S1700000_S1700000x1_0 : (⟨S1700000, .f32⟩ : BufTy).Contents (Elt F) → (⟨S1700000x1, .f32⟩ : BufTy).Contents (Elt F)),
    unary main_v55 main_v56 (broadcastInDim S1700000x64 ![0, 1] bcast_S1700000x1_S1700000x64_0_1 : (⟨S1700000x1, .f32⟩ : BufTy).Contents (Elt F) → (⟨S1700000x64, .f32⟩ : BufTy).Contents (Elt F)),
    binary main_v54 main_v56 main_v57 (mulf : (⟨S1700000x64, .f32⟩ : BufTy).Contents (Elt F) → (⟨S1700000x64, .f32⟩ : BufTy).Contents (Elt F) → (⟨S1700000x64, .f32⟩ : BufTy).Contents (Elt F)),
    nullary main_cst_10 (constant S_ .f32 0x00000000#32),
    unary main_cst_10 main_v58 (broadcastInDim S100000x64 ![] bcast_S_S100000x64 : (⟨S_, .f32⟩ : BufTy).Contents (Elt F) → (⟨S100000x64, .f32⟩ : BufTy).Contents (Elt F)),
    unary main_v6 main_v59 (broadcastInDim S1700000x1 ![0] bcast_S1700000_S1700000x1_0 : (⟨S1700000, .i32⟩ : BufTy).Contents (Elt F) → (⟨S1700000x1, .i32⟩ : BufTy).Contents (Elt F)),
    ternary main_v58 main_v59 main_v57 main_v60 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v61 (broadcastInDim S1x64 ![1] bcast_S64_S1x64_1 : (⟨S64, .f32⟩ : BufTy).Contents (Elt F) → (⟨S1x64, .f32⟩ : BufTy).Contents (Elt F)),
    unary main_v61 main_v62 (broadcastInDim S100000x64 ![0, 1] bcast_S1x64_S100000x64_0_1 : (⟨S1x64, .f32⟩ : BufTy).Contents (Elt F) → (⟨S100000x64, .f32⟩ : BufTy).Contents (Elt F)),
    binary main_v60 main_v62 main_v63 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0xFF800000#32),
    TRef.binary (TRef.of (T := ⟨S100000x64, .f32⟩) main_v63) (TRef.of (T := ⟨S_, .f32⟩) main_call1_cst) (TRef.of (T := ⟨S100000, .f32⟩) main_call1_v0) (fun x v => Host.reduce FloatOps.maximumf x v reducesTo_S100000x64_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x64, .f32⟩) main_call1_v4) (broadcastInDim S100000x64 ![0, 1] bcast_S100000x1_S100000x64_0_1),
    TRef.binary (TRef.of (T := ⟨S100000x64, .f32⟩) main_v63) (TRef.of (T := ⟨S100000x64, .f32⟩) main_call1_v4) (TRef.of (T := ⟨S100000x64, .f32⟩) main_call1_v5) subf,
    TRef.unary (TRef.of (T := ⟨S100000x64, .f32⟩) main_call1_v5) (TRef.of (T := ⟨S100000x64, .f32⟩) main_call1_v6) Host.exp,
    TRef.nullary (TRef.of (T := ⟨S_, .f32⟩) main_call1_cst_1) (constant S_ .f32 0x00000000#32),
    TRef.binary (TRef.of (T := ⟨S100000x64, .f32⟩) main_call1_v6) (TRef.of (T := ⟨S_, .f32⟩) main_call1_cst_1) (TRef.of (T := ⟨S100000, .f32⟩) main_call1_v7) (fun x v => Host.reduceAdd x v reducesTo_S100000x64_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x64, .f32⟩) main_call1_v10) (broadcastInDim S100000x64 ![0, 1] bcast_S100000x1_S100000x64_0_1),
    TRef.binary (TRef.of (T := ⟨S100000x64, .f32⟩) main_call1_v5) (TRef.of (T := ⟨S100000x64, .f32⟩) main_call1_v10) (TRef.of (T := ⟨S100000x64, .f32⟩) main_v64) subf ]

theorem ops_split : (ops : List (HloOp τ sig (Elt F))) = edges ++ (denseA ++ (spreadA ++ (reluA ++ (denseB ++ (spreadB ++ softmaxB))))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

variable (V : Valuation τ sig (Elt F))

/-! ## Each stretch, read -/

theorem edges_src : after edges V (Proc.devRef .tc main_v3) = Cert.Gcn.edgeSrc (F := F) (V (Proc.devRef .tc main_arg1)) := by
  after_results_simp
  rfl
theorem edges_dst : after edges V (Proc.devRef .tc main_v6) = Cert.Gcn.edgeDst (F := F) (V (Proc.devRef .tc main_arg1)) := by
  after_results_simp
  rfl
theorem edges_weight : after edges V (Proc.devRef .tc main_v28)
    = Cert.Gcn.edgeWeight (F := F) (Cert.Gcn.edgeSrc (V (Proc.devRef .tc main_arg1))) (Cert.Gcn.edgeDst (V (Proc.devRef .tc main_arg1))) := by
  after_results_simp
  rfl
theorem edges_arg0 : after edges V (Proc.devRef .tc main_arg0) = V (Proc.devRef .tc main_arg0) := by after_results_simp
theorem edges_arg2 : after edges V (Proc.devRef .tc main_arg2) = V (Proc.devRef .tc main_arg2) := by after_results_simp

theorem denseA_out : after denseA V (Proc.devRef .tc main_v29) = Cert.Gcn.dense1 (F := F) (V (Proc.devRef .tc main_arg0)) (V (Proc.devRef .tc main_arg2)) := by
  after_results_simp
  rfl
theorem denseA_src : after denseA V (Proc.devRef .tc main_v3) = V (Proc.devRef .tc main_v3) := by after_results_simp
theorem denseA_dst : after denseA V (Proc.devRef .tc main_v6) = V (Proc.devRef .tc main_v6) := by after_results_simp
theorem denseA_weight : after denseA V (Proc.devRef .tc main_v28) = V (Proc.devRef .tc main_v28) := by after_results_simp

theorem spreadA_out : after spreadA V (Proc.devRef .tc main_v42)
    = Cert.Gcn.propagate128 (F := F) (V (Proc.devRef .tc main_v29)) (V (Proc.devRef .tc main_v3)) (V (Proc.devRef .tc main_v6)) (V (Proc.devRef .tc main_v28)) := by
  after_results_simp
  rfl

theorem reluA_out : after reluA V (Proc.devRef .tc main_v46)
    = Cert.Gcn.biasRelu (F := F) (V (Proc.devRef .tc main_v42)) (Cert.Gcn.row128 (V (Proc.devRef .tc main_arg3))) := by
  after_results_simp
  rfl

theorem denseB_out : after denseB V (Proc.devRef .tc main_v47) = Cert.Gcn.dense2 (F := F) (V (Proc.devRef .tc main_v46)) (V (Proc.devRef .tc main_arg4)) := by
  after_results_simp
  rfl

theorem spreadB_out : after spreadB V (Proc.devRef .tc main_v60)
    = Cert.Gcn.propagate64 (F := F) (V (Proc.devRef .tc main_v47)) (V (Proc.devRef .tc main_v3)) (V (Proc.devRef .tc main_v6)) (V (Proc.devRef .tc main_v28)) := by
  after_results_simp
  rfl

/-- The biased sum, read by log_softmax at its own buffer's type, is itself. -/
theorem ofBuf_biased (p1 : main_v63.ty = ⟨S100000x64, .f32⟩) (p2 : main_v63.space ≠ .host) (p3 : main_v63.isScoped = false)
    (v : main_v63.ty.Contents (Elt F)) : (TRef.of (T := ⟨S100000x64, .f32⟩) main_v63 p1 p2 p3).ofBuf v = v := rfl

/-- log_softmax's result, written at the result buffer's type, is itself. -/
theorem toBuf_result (p1 : main_v64.ty = ⟨S100000x64, .f32⟩) (p2 : main_v64.space ≠ .host) (p3 : main_v64.isScoped = false)
    (v : (⟨S100000x64, .f32⟩ : BufTy).Contents (Elt F)) : (TRef.of (T := ⟨S100000x64, .f32⟩) main_v64 p1 p2 p3).toBuf v = v := rfl

theorem softmaxB_out : after softmaxB V (Proc.devRef .tc main_v64)
    = Cert.Gcn.biasLogSoftmax (F := F) (V (Proc.devRef .tc main_v60)) (Cert.Gcn.row64 (V (Proc.devRef .tc main_arg5))) := by
  after_results_simp
  simp only [Cert.LibTypedRef.ofBuf_toBuf]
  simp only [ofBuf_biased, toBuf_result]
  rfl

/-! ## What several stretches in a row keep -/

theorem keep_arg3 : after (edges ++ (denseA ++ spreadA)) V (Proc.devRef .tc main_arg3) = V (Proc.devRef .tc main_arg3) := by
  simp only [after_append]
  after_results_simp
theorem keep_arg4 : after (edges ++ (denseA ++ (spreadA ++ reluA))) V (Proc.devRef .tc main_arg4) = V (Proc.devRef .tc main_arg4) := by
  simp only [after_append]
  after_results_simp
theorem keep_arg5 : after (edges ++ (denseA ++ (spreadA ++ (reluA ++ (denseB ++ spreadB))))) V (Proc.devRef .tc main_arg5) = V (Proc.devRef .tc main_arg5) := by
  simp only [after_append]
  after_results_simp
theorem keep_src : after (denseA ++ (spreadA ++ (reluA ++ denseB))) V (Proc.devRef .tc main_v3) = V (Proc.devRef .tc main_v3) := by
  simp only [after_append]
  after_results_simp
theorem keep_dst : after (denseA ++ (spreadA ++ (reluA ++ denseB))) V (Proc.devRef .tc main_v6) = V (Proc.devRef .tc main_v6) := by
  simp only [after_append]
  after_results_simp
theorem keep_weight : after (denseA ++ (spreadA ++ (reluA ++ denseB))) V (Proc.devRef .tc main_v28) = V (Proc.devRef .tc main_v28) := by
  simp only [after_append]
  after_results_simp

/-! ## The whole line -/

/-- The result buffer after all 94 operations is the network of the six argument arrays as they stood before. -/
theorem ops_result : after ops V (Proc.devRef .tc main_v64)
    = Cert.Gcn.network (F := F) (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  have k5 := keep_arg5 V
  have k4 := keep_arg4 V
  have k3 := keep_arg3 V
  have ks := keep_src (after edges V)
  have kd := keep_dst (after edges V)
  have kw := keep_weight (after edges V)
  simp only [after_append] at k5 k4 k3 ks kd kw
  rw [ops_split]
  simp only [after_append]
  rw [softmaxB_out, spreadB_out, denseB_out, reluA_out, spreadA_out, denseA_out,
    k5, ks, kd, kw, k4, k3, denseA_src, denseA_dst, denseA_weight, edges_arg0, edges_arg2, edges_src, edges_dst, edges_weight]
  rfl

/-- No operation writes an argument array. -/
theorem ops_arg0 : after ops V (Proc.devRef .tc main_arg0) = V (Proc.devRef .tc main_arg0) := by after_results_simp
theorem ops_arg1 : after ops V (Proc.devRef .tc main_arg1) = V (Proc.devRef .tc main_arg1) := by after_results_simp
theorem ops_arg2 : after ops V (Proc.devRef .tc main_arg2) = V (Proc.devRef .tc main_arg2) := by after_results_simp
theorem ops_arg3 : after ops V (Proc.devRef .tc main_arg3) = V (Proc.devRef .tc main_arg3) := by after_results_simp
theorem ops_arg4 : after ops V (Proc.devRef .tc main_arg4) = V (Proc.devRef .tc main_arg4) := by after_results_simp
theorem ops_arg5 : after ops V (Proc.devRef .tc main_arg5) = V (Proc.devRef .tc main_arg5) := by after_results_simp

/-! ## The run -/

/-- On every device, from any memory with zero counters: every weakly fair execution of the reference's @main
    terminates, the result buffer at the network of the argument arrays as launched, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64)
        = Cert.Gcn.network (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v64).trans (ops_result (launchContents m c)),
      (h c main_arg0).trans (ops_arg0 (launchContents m c)),
      (h c main_arg1).trans (ops_arg1 (launchContents m c)),
      (h c main_arg2).trans (ops_arg2 (launchContents m c)),
      (h c main_arg3).trans (ops_arg3 (launchContents m c)),
      (h c main_arg4).trans (ops_arg4 (launchContents m c)),
      (h c main_arg5).trans (ops_arg5 (launchContents m c))⟩)
    (run_seq scopedRefs_eq scopedSems_eq defs main (fun _ => ops) main_eq (fun _ => ops_sub) m ρ)

end Cert.ReferenceIdeal.Gcn

end
-- ==== Proof.lean ====
/-
  The certificate of a two-layer graph convolution: a pipelined kernel program against its plain reference, equal over
  the extended reals.

  Both programs compute, for node features `x`, an edge list `e` and two layers' weights and biases,
      log_softmax (P (relu (P (x · W1) + b1) · W2) + b2),
  where `P h` sends every node the sum, over the edges into it (self-loops added), of the source's row of `h` scaled by
  `rsqrt (max deg_src 1) · rsqrt (max deg_dst 1)`. The reference does all of it with whole-array host operations. The
  kernel does the gathers and scatters with the SAME host operations, and the four dense steps — the two matrix products,
  bias-and-relu, bias-and-log-softmax — in four pipelined regions, each over twenty blocks of 5000 rows.

  Nothing in the comparison is an algebraic identity of the extended reals: each region writes, block by block, exactly
  the rows the reference's whole-array operation produces (a row of a product or of a soft-max depends on that row of the
  left operand only; rounding to bf16 before the product is the identity on exact values; a product accumulated into a
  zero block is the plain sum; a row maximum folded from -inf and then once more compared with -inf is the same
  maximum), so the finiteness of the inputs is never used. The specification (Proof/Spec.lean) names the network's
  stages; the kernel's result is read back through its seven segments (Proof/KernelRun.lean, KernelHost.lean,
  KernelValue.lean, the regions in RegionDense.lean and RegionBias.lean), the reference's through its 94 operations
  (Proof/ReferenceRun.lean), and both are the specification's network of the argument arrays.

  The three frames: the kernel's two programs run, fault-free, with their arguments unchanged, by their generated frame
  theorems; the reference's by its run with the result forgotten. The idealized kernel is the printed kernel read at
  exact values with no rewrite, so that conjunct is trivial.
-/
import proofs.«101620_j6090263626106_1_alg».proof.Defs
import proofs.«101620_j6090263626106_1_alg».proof.Proof.Gen.Kernel
import proofs.«101620_j6090263626106_1_alg».proof.Proof.Gen.Kernel.Skeleton
import proofs.«101620_j6090263626106_1_alg».proof.Proof.Gen.Kernel.Launch
import proofs.«101620_j6090263626106_1_alg».proof.Proof.Gen.Kernel.Points
import proofs.«101620_j6090263626106_1_alg».proof.Proof.Gen.Kernel.Frame
import proofs.«101620_j6090263626106_1_alg».proof.Proof.Gen.KernelIdeal
import proofs.«101620_j6090263626106_1_alg».proof.Proof.Gen.KernelIdeal.Skeleton
import proofs.«101620_j6090263626106_1_alg».proof.Proof.Gen.KernelIdeal.Launch
import proofs.«101620_j6090263626106_1_alg».proof.Proof.Gen.KernelIdeal.Points
import proofs.«101620_j6090263626106_1_alg».proof.Proof.Gen.KernelIdeal.Frame
import proofs.«101620_j6090263626106_1_alg».proof.Proof.Gen.ReferenceIdeal
import proofs.«101620_j6090263626106_1_alg».proof.Proof.Gen.Pre_finite_inputs
import proofs.«101620_j6090263626106_1_alg».proof.Proof.Spec
import proofs.«101620_j6090263626106_1_alg».proof.Proof.KernelRun
import proofs.«101620_j6090263626106_1_alg».proof.Proof.KernelHost
import proofs.«101620_j6090263626106_1_alg».proof.Proof.KernelValue
import proofs.«101620_j6090263626106_1_alg».proof.Proof.RegionDense
import proofs.«101620_j6090263626106_1_alg».proof.Proof.RegionBias
import proofs.«101620_j6090263626106_1_alg».proof.Proof.ReferenceRun
import Idealize.ShloMosaic.Adequacy
import Idealize.ShloMosaic.Init

noncomputable section

namespace Cert.Proof

open Idealize.ShloMosaic Idealize.SL.Sem

/-- The printed kernel runs, nothing faulting, its arguments unchanged. -/
theorem frame_kernel : Cert.frame_Kernel := fun m ρ _ => Cert.Kernel.Gen.frame m ρ

/-- So does the kernel read at exact values. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Gcn.run (F := Ideal) m ρ)

/-- The idealization rewrote no operation. -/
theorem preserves : Cert.preserves_Kernel_KernelIdeal := trivial

/-- What the four regions leave in their output arrays. -/
theorem regions : Cert.KernelIdeal.Gcn.RegionValues where
  dense1 := Cert.KernelIdeal.DenseRegions.dense1_final
  biasRelu := Cert.KernelIdeal.BiasRegions.biasRelu_final
  dense2 := Cert.KernelIdeal.DenseRegions.dense2_final
  biasLogSoftmax := Cert.KernelIdeal.BiasRegions.biasLogSoftmax_final

/-- From memories that agree on the six arguments, both programs end with the network of those arguments in their
    result buffer. -/
theorem algebraic : Cert.algebraic_KernelIdeal_ReferenceIdeal := by
  intro m ρ m' ρ' _ hagree
  refine ⟨fun c => Cert.Gcn.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Gcn.result_eq m ρ regions c), (h c).2⟩)
      (Cert.KernelIdeal.Gcn.run_named (F := Ideal) m ρ)
  · refine (θ_run Cert.ReferenceIdeal.defs _ _).mono (fun _ h c => ⟨(h c).1.trans ?_, (h c).2⟩)
      (Cert.ReferenceIdeal.Gcn.run (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
